-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v79)) (v2 : (c : Dev Cert.KernelIdeal.nD) → Buf (Elt Ideal) ((c.tc : Thread Cert.KernelIdeal.nD Cert.KernelIdeal.τ).loc Cert.KernelIdeal.main_v81)) (v3 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_v81) = v2 c
          ∧ r.2.mem ((c.tc : Thread Cert.KernelIdeal.nD Cert.KernelIdeal.τ).loc Cert.KernelIdeal.main_v83) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S8000x64 : Shape := ⟨2, ![8000, 64]⟩
abbrev S40000x64 : Shape := ⟨2, ![40000, 64]⟩
abbrev S64x64 : Shape := ⟨2, ![64, 64]⟩
abbrev S64 : Shape := ⟨1, ![64]⟩
abbrev S2000000 : Shape := ⟨1, ![2000000]⟩
abbrev S400000 : Shape := ⟨1, ![400000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S8000x64 : S_.BroadcastsInDim S8000x64 (![] : Fin 0 → Fin S8000x64.rank)
  reducesTo_S8000x64_S_d0_1 : S8000x64.ReducesTo [0, 1] S_
  bcast_S_S40000x64 : S_.BroadcastsInDim S40000x64 (![] : Fin 0 → Fin S40000x64.rank)
  reducesTo_S40000x64_S_d0_1 : S40000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64x64 .f32) (main_arg15 : FVec F S64x64 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  main_v78

def fn_part3 {F : FTy → Type} [FloatOps F] (main_arg11 : FVec F S64 .f32) (main_arg12 : FVec F S64x64 .f32) (main_arg13 : FVec F S64x64 .f32) (main_arg14 : FVec F S64x64 .f32) (main_arg15 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64x64 .f32) (main_arg14 : FVec F S64x64 .f32) (main_arg15 : FVec F S64x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64x64 .f32) (main_arg14 : FVec F S64x64 .f32) (main_arg15 : FVec F S64x64 .f32) (main_v13 : IVec S_ 1) (main_v16 : IVec S40000x64 1) : IVec S_ 1 :=
  let main_c_5 : IVec S_ 1 := constantI S_ 1 1#1
  let main_v17 : IVec S_ 1 := (fun x v => Host.reduce IntOp.andi x v reducesTo_S40000x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S200000x64 .f32) (main_arg1 : FVec F S200000x64 .f32) (main_arg2 : FVec F S8000x64 .f32) (main_arg3 : FVec F S40000x64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64x64 .f32) (main_arg14 : FVec F S64x64 .f32) (main_arg15 : FVec F S64x64 .f32) (main_arg16 : IVec S2000000 32) (main_arg17 : IVec S2000000 32) (main_arg18 : IVec S2000000 32) (main_arg19 : IVec S2000000 32) (main_arg20 : IVec S2000000 32) (main_arg21 : IVec S2000000 32) (main_arg22 : IVec S400000 32) (main_arg23 : IVec S400000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S8000x64 .f32 := Host.absf main_arg2
  let main_cst_2 : FVec F S_ .f32 := constant S_ .f32 0x7F800000#32
  let main_v10 : FVec F S8000x64 .f32 := broadcastInDim S8000x64 ![] bcast_S_S8000x64 main_cst_2
  let main_v11 : IVec S8000x64 1 := cmpf .olt main_v9 main_v10
  let main_c_3 : IVec S_ 1 := constantI S_ 1 1#1
  let main_v12 : IVec S_ 1 := (fun x v => Host.reduce IntOp.andi x v reducesTo_S8000x64_S_d0_1 h_S_) main_v11 main_c_3
  let main_v13 : IVec S_ 1 := andi main_v8 main_v12
  let main_v14 : FVec F S40000x64 .f32 := Host.absf main_arg3
  let main_cst_4 : FVec F S_ .f32 := constant S_ .f32 0x7F800000#32
  let main_v15 : FVec F S40000x64 .f32 := broadcastInDim S40000x64 ![] bcast_S_S40000x64 main_cst_4
  let main_v16 : IVec S40000x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S200000x64 : Shape := ⟨2, ![200000, 64]⟩
abbrev S8000x64 : Shape := ⟨2, ![8000, 64]⟩
abbrev S40000x64 : Shape := ⟨2, ![40000, 64]⟩
abbrev S64x64 : Shape := ⟨2, ![64, 64]⟩
abbrev S64 : Shape := ⟨1, ![64]⟩
abbrev S2000000 : Shape := ⟨1, ![2000000]⟩
abbrev S400000 : Shape := ⟨1, ![400000]⟩
abbrev S_ : Shape := ⟨0, ![]⟩
abbrev S2000000x1 : Shape := ⟨2, ![2000000, 1]⟩
abbrev S2000000x64 : Shape := ⟨2, ![2000000, 64]⟩
abbrev S200000 : Shape := ⟨1, ![200000]⟩
abbrev S200000x1 : Shape := ⟨2, ![200000, 1]⟩
abbrev S40000 : Shape := ⟨1, ![40000]⟩
abbrev S40000x1 : Shape := ⟨2, ![40000, 1]⟩
abbrev S400000x1 : Shape := ⟨2, ![400000, 1]⟩
abbrev S400000x64 : Shape := ⟨2, ![400000, 64]⟩
abbrev S8000 : Shape := ⟨1, ![8000]⟩
abbrev S8000x1 : Shape := ⟨2, ![8000, 1]⟩
abbrev S1x64 : Shape := ⟨2, ![1, 64]⟩
abbrev S10000x64 : Shape := ⟨2, ![10000, 64]⟩

abbrev nBuf : Space → Nat
  | .hbm => 132
  | .vmem => 33
  | .smem => 0
  | _ => 0

abbrev hbmTy0_0 (i : Nat) : BufTy := match i % 128 with
  | 0 => ⟨S200000x64, .f32⟩
  | 1 => ⟨S200000x64, .f32⟩
  | 2 => ⟨S8000x64, .f32⟩
  | 3 => ⟨S40000x64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64x64, .f32⟩
  | 15 => ⟨S64x64, .f32⟩
  | 16 => ⟨S2000000, .i32⟩
  | 17 => ⟨S2000000, .i32⟩
  | 18 => ⟨S2000000, .i32⟩
  | 19 => ⟨S2000000, .i32⟩
  | 20 => ⟨S2000000, .i32⟩
  | 21 => ⟨S2000000, .i32⟩
  | 22 => ⟨S400000, .i32⟩
  | 23 => ⟨S400000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x64, .f32⟩
  | 33 => ⟨S_, .f32⟩
  | 34 => ⟨S200000x64, .f32⟩
  | 35 => ⟨S2000000x1, .i32⟩
  | 36 => ⟨S200000x64, .f32⟩
  | 37 => ⟨S_, .f32⟩
  | 38 => ⟨S2000000, .f32⟩
  | 39 => ⟨S_, .f32⟩
  | 40 => ⟨S200000, .f32⟩
  | 41 => ⟨S2000000x1, .i32⟩
  | 42 => ⟨S200000, .f32⟩
  | 43 => ⟨S_, .f32⟩
  | 44 => ⟨S200000, .f32⟩
  | 45 => ⟨S200000, .f32⟩
  | 46 => ⟨S200000x1, .f32⟩
  | 47 => ⟨S200000x64, .f32⟩
  | 48 => ⟨S200000x64, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2000000x64, .f32⟩
  | 58 => ⟨S_, .f32⟩
  | 59 => ⟨S200000x64, .f32⟩
  | 60 => ⟨S2000000x1, .i32⟩
  | 61 => ⟨S200000x64, .f32⟩
  | 62 => ⟨S_, .f32⟩
  | 63 => ⟨S2000000, .f32⟩
  | 64 => ⟨S_, .f32⟩
  | 65 => ⟨S200000, .f32⟩
  | 66 => ⟨S2000000x1, .i32⟩
  | 67 => ⟨S200000, .f32⟩
  | 68 => ⟨S_, .f32⟩
  | 69 => ⟨S200000, .f32⟩
  | 70 => ⟨S200000, .f32⟩
  | 71 => ⟨S200000x1, .f32⟩
  | 72 => ⟨S200000x64, .f32⟩
  | 73 => ⟨S200000x64, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x64, .f32⟩
  | 83 => ⟨S_, .f32⟩
  | 84 => ⟨S40000x64, .f32⟩
  | 85 => ⟨S2000000x1, .i32⟩
  | 86 => ⟨S40000x64, .f32⟩
  | 87 => ⟨S_, .f32⟩
  | 88 => ⟨S2000000, .f32⟩
  | 89 => ⟨S_, .f32⟩
  | 90 => ⟨S40000, .f32⟩
  | 91 => ⟨S2000000x1, .i32⟩
  | 92 => ⟨S40000, .f32⟩
  | 93 => ⟨S_, .f32⟩
  | 94 => ⟨S40000, .f32⟩
  | 95 => ⟨S40000, .f32⟩
  | 96 => ⟨S40000x1, .f32⟩
  | 97 => ⟨S40000x64, .f32⟩
  | 98 => ⟨S40000x64, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x64, .f32⟩
  | 108 => ⟨S_, .f32⟩
  | 109 => ⟨S8000x64, .f32⟩
  | 110 => ⟨S400000x1, .i32⟩
  | 111 => ⟨S8000x64, .f32⟩
  | 112 => ⟨S_, .f32⟩
  | 113 => ⟨S400000, .f32⟩
  | 114 => ⟨S_, .f32⟩
  | 115 => ⟨S8000, .f32⟩
  | 116 => ⟨S400000x1, .i32⟩
  | 117 => ⟨S8000, .f32⟩
  | 118 => ⟨S_, .f32⟩
  | 119 => ⟨S8000, .f32⟩
  | 120 => ⟨S8000, .f32⟩
  | 121 => ⟨S8000x1, .f32⟩
  | 122 => ⟨S8000x64, .f32⟩
  | 123 => ⟨S8000x64, .f32⟩
  | 124 => ⟨S1x64, .f32⟩
  | 125 => ⟨S200000x64, .f32⟩
  | 126 => ⟨S1x64, .f32⟩
  | 127 => ⟨S200000x64, .f32⟩
  | _ => ⟨S200000x64, .f32⟩

abbrev hbmTy0_1 (i : Nat) : BufTy := match i % 128 with
  | 0 => ⟨S1x64, .f32⟩
  | 1 => ⟨S8000x64, .f32⟩
  | 2 => ⟨S1x64, .f32⟩
  | 3 => ⟨S40000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S8000x64, .f32⟩
  | .local _ .vmem, ⟨19, _⟩ => ⟨S64x64, .f32⟩
  | .local _ .vmem, ⟨20, _⟩ => ⟨S1x64, .f32⟩
  | .local _ .vmem, ⟨21, _⟩ => ⟨S8000x64, .f32⟩
  | .local _ .vmem, ⟨22, _⟩ => ⟨S64x64, .f32⟩
  | .local _ .vmem, ⟨23, _⟩ => ⟨S8000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_c_5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_7 : Ref sig .tc := ⟨.hbm, 62, rfl⟩
abbrev main_v29 : Ref sig .tc := ⟨.hbm, 63, rfl⟩
abbrev main_cst_8 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_10 : Ref sig .tc := ⟨.hbm, 74, rfl⟩
abbrev main_v38 : Ref sig .tc := ⟨.hbm, 75, rfl⟩
abbrev main_v39 : Ref sig .tc := ⟨.hbm, 76, rfl⟩
abbrev main_c_11 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_12 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_13 : Ref sig .tc := ⟨.hbm, 87, rfl⟩
abbrev main_v48 : Ref sig .tc := ⟨.hbm, 88, rfl⟩
abbrev main_cst_14 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_15 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_16 : Ref sig .tc := ⟨.hbm, 99, rfl⟩
abbrev main_v57 : Ref sig .tc := ⟨.hbm, 100, rfl⟩
abbrev main_v58 : Ref sig .tc := ⟨.hbm, 101, rfl⟩
abbrev main_c_17 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_18 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_19 : Ref sig .tc := ⟨.hbm, 112, rfl⟩
abbrev main_v67 : Ref sig .tc := ⟨.hbm, 113, rfl⟩
abbrev main_cst_20 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_21 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8000x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8000x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S40000x64 : S_.BroadcastsInDim S40000x64 (![] : Fin 0 → Fin S40000x64.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x64_0_1 : S40000x1.BroadcastsInDim S40000x64 (![0, 1] : Fin 2 → Fin S40000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S8000x64 : S_.BroadcastsInDim S8000x64 (![] : Fin 0 → Fin S8000x64.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x64_0_1 : S8000x1.BroadcastsInDim S8000x64 (![0, 1] : Fin 2 → Fin S8000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S8000x64_S8000x64_0_0 : ∀ a, (![0, 0] : Fin 2 → Nat) a + S8000x64.size a ≤ S8000x64.size a
  h_S8000x64 : 0 < S8000x64.numel
  broadcasts_S1x64_S8000x64 : S1x64.Broadcasts S8000x64
  shapeCasts_S8000x64_S8000x64 : S8000x64.ShapeCasts S8000x64
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  scatter_S40000x64_S2000000x1_S2000000x64_1_0_0_1_wf : ScatterDims.WF S40000x64 S2000000x1 S2000000x64 [1] [0] [0] 1
  scatter_S40000_S2000000x1_S2000000_n_0_0_1_wf : ScatterDims.WF S40000 S2000000x1 S2000000 [] [0] [0] 1
  gather_S200000x64_S400000x1_S400000x64_1_0_n_n_0_1_164_wf : GatherDims.WF S200000x64 S400000x1 S400000x64 [1] [0] [] [0] [] 1 ![1, 64]
  scatter_S8000x64_S400000x1_S400000x64_1_0_0_1_wf : ScatterDims.WF S8000x64 S400000x1 S400000x64 [1] [0] [0] 1
  scatter_S8000_S400000x1_S400000_n_0_0_1_wf : ScatterDims.WF S8000 S400000x1 S400000 [] [0] [0] 1
  dot_S10000x64_S64x64_S10000x64_1_0_0_1_n_n_wf : DotDims.WF S10000x64 S64x64 S10000x64 [1] [0] [0] [1] [] []
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S200000x64.size a
  hwx0_3 : ∀ i : grid0.Coords, EltTy.bits .f32 = 32 ∨ (Rect.block (s := S200000x64) S10000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S200000x64.size a
  hwx0_5 : ∀ i : grid0.Coords, EltTy.bits .f32 = 32 ∨ (Rect.block (s := S200000x64) S10000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S200000x64.size a
  hwx0_7 : ∀ i : grid0.Coords, EltTy.bits .f32 = 32 ∨ (Rect.block (s := S200000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S200000x64.size a
  hwx1_3 : ∀ i : grid1.Coords, EltTy.bits .f32 = 32 ∨ (Rect.block (s := S200000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S8000x64.size a
  hwx2_0 : ∀ i : grid2.Coords, EltTy.bits .f32 = 32 ∨ (Rect.block (s := S8000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S8000x64.size a
  hwx2_3 : ∀ i : grid2.Coords, EltTy.bits .f32 = 32 ∨ (Rect.block (s := S8000x64) S8000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S8000x64.size a ≤ S8000x64.size a
  hwx2_5 : ∀ i : grid2.Coords, EltTy.bits .f32 = 32 ∨ (Rect.block (s := S8000x64) S8000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S40000x64.size a
  hwx3_0 : ∀ i : grid3.Coords, EltTy.bits .f32 = 32 ∨ (Rect.block (s := S40000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S40000x64.size a
  hwx3_3 : ∀ i : grid3.Coords, EltTy.bits .f32 = 32 ∨ (Rect.block (s := S40000x64) S10000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S40000x64.size a
  hwx3_5 : ∀ i : grid3.Coords, EltTy.bits .f32 = 32 ∨ (Rect.block (s := S40000x64) S10000x64.size (cc3_transform_5 i) (hinb3_5 i)).WholeWords (EltTy.packing .f32)

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S40000x64_S2000000x1_S2000000x64_1_0_0_1 : ScatterDims S40000x64 S2000000x1 S2000000x64 where
  updateWindowDims := [1]
  insertedWindowDims := [0]
  scatterDimsToOperandDims := [0]
  indexVectorDim := 1
  wf := scatter_S40000x64_S2000000x1_S2000000x64_1_0_0_1_wf
def scatter_S40000_S2000000x1_S2000000_n_0_0_1 : ScatterDims S40000 S2000000x1 S2000000 where
  updateWindowDims := []
  insertedWindowDims := [0]
  scatterDimsToOperandDims := [0]
  indexVectorDim := 1
  wf := scatter_S40000_S2000000x1_S2000000_n_0_0_1_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S8000x64_S400000x1_S400000x64_1_0_0_1 : ScatterDims S8000x64 S400000x1 S400000x64 where
  updateWindowDims := [1]
  insertedWindowDims := [0]
  scatterDimsToOperandDims := [0]
  indexVectorDim := 1
  wf := scatter_S8000x64_S400000x1_S400000x64_1_0_0_1_wf
def scatter_S8000_S400000x1_S400000_n_0_0_1 : ScatterDims S8000 S400000x1 S400000 where
  updateWindowDims := []
  insertedWindowDims := [0]
  scatterDimsToOperandDims := [0]
  indexVectorDim := 1
  wf := scatter_S8000_S400000x1_S400000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v76) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S10000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v77) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S8000x64.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S8000x64.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S8000x64.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg3) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S10000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x64 : Shape := ⟨2, ![200000, 64]⟩
abbrev S8000x64 : Shape := ⟨2, ![8000, 64]⟩
abbrev S40000x64 : Shape := ⟨2, ![40000, 64]⟩
abbrev S64x64 : Shape := ⟨2, ![64, 64]⟩
abbrev S64 : Shape := ⟨1, ![64]⟩
abbrev S2000000 : Shape := ⟨1, ![2000000]⟩
abbrev S400000 : Shape := ⟨1, ![400000]⟩
abbrev S1x64 : Shape := ⟨2, ![1, 64]⟩
abbrev S_ : Shape := ⟨0, ![]⟩
abbrev S2000000x1 : Shape := ⟨2, ![2000000, 1]⟩
abbrev S2000000x64 : Shape := ⟨2, ![2000000, 64]⟩
abbrev S200000x1 : Shape := ⟨2, ![200000, 1]⟩
abbrev S40000x1 : Shape := ⟨2, ![40000, 1]⟩
abbrev S400000x1 : Shape := ⟨2, ![400000, 1]⟩
abbrev S400000x64 : Shape := ⟨2, ![400000, 64]⟩
abbrev S8000x1 : Shape := ⟨2, ![8000, 1]⟩

abbrev nBuf : Space → Nat
  | .hbm => 144
  | .vmem => 0
  | .smem => 0
  | _ => 0

abbrev hbmTy0_0 (i : Nat) : BufTy := match i % 128 with
  | 0 => ⟨S200000x64, .f32⟩
  | 1 => ⟨S200000x64, .f32⟩
  | 2 => ⟨S8000x64, .f32⟩
  | 3 => ⟨S40000x64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64x64, .f32⟩
  | 15 => ⟨S64x64, .f32⟩
  | 16 => ⟨S2000000, .i32⟩
  | 17 => ⟨S2000000, .i32⟩
  | 18 => ⟨S2000000, .i32⟩
  | 19 => ⟨S2000000, .i32⟩
  | 20 => ⟨S2000000, .i32⟩
  | 21 => ⟨S2000000, .i32⟩
  | 22 => ⟨S400000, .i32⟩
  | 23 => ⟨S400000, .i32⟩
  | 24 => ⟨S200000x64, .f32⟩
  | 25 => ⟨S1x64, .f32⟩
  | 26 => ⟨S200000x64, .f32⟩
  | 27 => ⟨S200000x64, .f32⟩
  | 28 => ⟨S200000x64, .f32⟩
  | 29 => ⟨S1x64, .f32⟩
  | 30 => ⟨S200000x64, .f32⟩
  | 31 => ⟨S200000x64, .f32⟩
  | 32 => ⟨S8000x64, .f32⟩
  | 33 => ⟨S1x64, .f32⟩
  | 34 => ⟨S8000x64, .f32⟩
  | 35 => ⟨S8000x64, .f32⟩
  | 36 => ⟨S40000x64, .f32⟩
  | 37 => ⟨S1x64, .f32⟩
  | 38 => ⟨S40000x64, .f32⟩
  | 39 => ⟨S40000x64, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000x64, .f32⟩
  | 49 => ⟨S_, .f32⟩
  | 50 => ⟨S200000x64, .f32⟩
  | 51 => ⟨S2000000x1, .i32⟩
  | 52 => ⟨S200000x64, .f32⟩
  | 53 => ⟨S_, .f32⟩
  | 54 => ⟨S2000000x1, .f32⟩
  | 55 => ⟨S_, .f32⟩
  | 56 => ⟨S200000x1, .f32⟩
  | 57 => ⟨S2000000x1, .i32⟩
  | 58 => ⟨S200000x1, .f32⟩
  | 59 => ⟨S_, .f32⟩
  | 60 => ⟨S200000x1, .f32⟩
  | 61 => ⟨S200000x1, .f32⟩
  | 62 => ⟨S200000x64, .f32⟩
  | 63 => ⟨S200000x64, .f32⟩
  | 64 => ⟨S200000x64, .f32⟩
  | 65 => ⟨S200000x64, .f32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000x64, .f32⟩
  | 75 => ⟨S_, .f32⟩
  | 76 => ⟨S200000x64, .f32⟩
  | 77 => ⟨S2000000x1, .i32⟩
  | 78 => ⟨S200000x64, .f32⟩
  | 79 => ⟨S_, .f32⟩
  | 80 => ⟨S2000000x1, .f32⟩
  | 81 => ⟨S_, .f32⟩
  | 82 => ⟨S200000x1, .f32⟩
  | 83 => ⟨S2000000x1, .i32⟩
  | 84 => ⟨S200000x1, .f32⟩
  | 85 => ⟨S_, .f32⟩
  | 86 => ⟨S200000x1, .f32⟩
  | 87 => ⟨S200000x1, .f32⟩
  | 88 => ⟨S200000x64, .f32⟩
  | 89 => ⟨S200000x64, .f32⟩
  | 90 => ⟨S200000x64, .f32⟩
  | 91 => ⟨S200000x64, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000x64, .f32⟩
  | 101 => ⟨S_, .f32⟩
  | 102 => ⟨S40000x64, .f32⟩
  | 103 => ⟨S2000000x1, .i32⟩
  | 104 => ⟨S40000x64, .f32⟩
  | 105 => ⟨S_, .f32⟩
  | 106 => ⟨S2000000x1, .f32⟩
  | 107 => ⟨S_, .f32⟩
  | 108 => ⟨S40000x1, .f32⟩
  | 109 => ⟨S2000000x1, .i32⟩
  | 110 => ⟨S40000x1, .f32⟩
  | 111 => ⟨S_, .f32⟩
  | 112 => ⟨S40000x1, .f32⟩
  | 113 => ⟨S40000x1, .f32⟩
  | 114 => ⟨S40000x64, .f32⟩
  | 115 => ⟨S40000x64, .f32⟩
  | 116 => ⟨S40000x64, .f32⟩
  | 117 => ⟨S40000x64, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x64, .f32⟩
  | 127 => ⟨S_, .f32⟩
  | _ => ⟨S200000x64, .f32⟩

abbrev hbmTy0_1 (i : Nat) : BufTy := match i % 128 with
  | 0 => ⟨S8000x64, .f32⟩
  | 1 => ⟨S400000x1, .i32⟩
  | 2 => ⟨S8000x64, .f32⟩
  | 3 => ⟨S_, .f32⟩
  | 4 => ⟨S400000x1, .f32⟩
  | 5 => ⟨S_, .f32⟩
  | 6 => ⟨S8000x1, .f32⟩
  | 7 => ⟨S400000x1, .i32⟩
  | 8 => ⟨S8000x1, .f32⟩
  | 9 => ⟨S_, .f32⟩
  | 10 => ⟨S8000x1, .f32⟩
  | 11 => ⟨S8000x1, .f32⟩
  | 12 => ⟨S8000x64, .f32⟩
  | 13 => ⟨S8000x64, .f32⟩
  | 14 => ⟨S8000x64, .f32⟩
  | 15 => ⟨S8000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_4 : Ref sig .tc := ⟨.hbm, 66, rfl⟩
abbrev main_v36 : Ref sig .tc := ⟨.hbm, 67, rfl⟩
abbrev main_v37 : Ref sig .tc := ⟨.hbm, 68, rfl⟩
abbrev main_c_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_7 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_c_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_16 : Ref sig .tc := ⟨.hbm, 118, rfl⟩
abbrev main_v76 : Ref sig .tc := ⟨.hbm, 119, rfl⟩
abbrev main_v77 : Ref sig .tc := ⟨.hbm, 120, rfl⟩
abbrev main_c_17 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_18 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_19 : Ref sig .tc := ⟨.hbm, 131, rfl⟩
abbrev main_v86 : Ref sig .tc := ⟨.hbm, 132, rfl⟩
abbrev main_cst_20 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_21 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1x64_S8000x64_0_1 : S1x64.BroadcastsInDim S8000x64 (![0, 1] : Fin 2 → Fin S8000x64.rank)
  bcast_S1x64_S40000x64_0_1 : S1x64.BroadcastsInDim S40000x64 (![0, 1] : Fin 2 → Fin S40000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  bcast_S_S2000000x1 : S_.BroadcastsInDim S2000000x1 (![] : Fin 0 → Fin S2000000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S_S40000x64 : S_.BroadcastsInDim S40000x64 (![] : Fin 0 → Fin S40000x64.rank)
  bcast_S_S40000x1 : S_.BroadcastsInDim S40000x1 (![] : Fin 0 → Fin S40000x1.rank)
  bcast_S40000x1_S40000x64_0_1 : S40000x1.BroadcastsInDim S40000x64 (![0, 1] : Fin 2 → Fin S40000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S8000x64 : S_.BroadcastsInDim S8000x64 (![] : Fin 0 → Fin S8000x64.rank)
  bcast_S_S400000x1 : S_.BroadcastsInDim S400000x1 (![] : Fin 0 → Fin S400000x1.rank)
  bcast_S_S8000x1 : S_.BroadcastsInDim S8000x1 (![] : Fin 0 → Fin S8000x1.rank)
  bcast_S8000x1_S8000x64_0_1 : S8000x1.BroadcastsInDim S8000x64 (![0, 1] : Fin 2 → Fin S8000x64.rank)
  dot_S200000x64_S64x64_S200000x64_1_0_0_1_n_n_wf : DotDims.WF S200000x64 S64x64 S200000x64 [1] [0] [0] [1] [] []
  dot_S8000x64_S64x64_S8000x64_1_0_0_1_n_n_wf : DotDims.WF S8000x64 S64x64 S8000x64 [1] [0] [0] [1] [] []
  dot_S40000x64_S64x64_S40000x64_1_0_0_1_n_n_wf : DotDims.WF S40000x64 S64x64 S40000x64 [1] [0] [0] [1] [] []
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000x1_S2000000x1_S2000000x1_1_0_0_1_wf : ScatterDims.WF S200000x1 S2000000x1 S2000000x1 [1] [0] [0] 1
  scatter_S40000x64_S2000000x1_S2000000x64_1_0_0_1_wf : ScatterDims.WF S40000x64 S2000000x1 S2000000x64 [1] [0] [0] 1
  scatter_S40000x1_S2000000x1_S2000000x1_1_0_0_1_wf : ScatterDims.WF S40000x1 S2000000x1 S2000000x1 [1] [0] [0] 1
  gather_S200000x64_S400000x1_S400000x64_1_0_n_n_0_1_164_wf : GatherDims.WF S200000x64 S400000x1 S400000x64 [1] [0] [] [0] [] 1 ![1, 64]
  scatter_S8000x64_S400000x1_S400000x64_1_0_0_1_wf : ScatterDims.WF S8000x64 S400000x1 S400000x64 [1] [0] [0] 1
  scatter_S8000x1_S400000x1_S400000x1_1_0_0_1_wf : ScatterDims.WF S8000x1 S400000x1 S400000x1 [1] [0] [0] 1

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def scatter_S40000x64_S2000000x1_S2000000x64_1_0_0_1 : ScatterDims S40000x64 S2000000x1 S2000000x64 where
  updateWindowDims := [1]
  insertedWindowDims := [0]
  scatterDimsToOperandDims := [0]
  indexVectorDim := 1
  wf := scatter_S40000x64_S2000000x1_S2000000x64_1_0_0_1_wf
def scatter_S40000x1_S2000000x1_S2000000x1_1_0_0_1 : ScatterDims S40000x1 S2000000x1 S2000000x1 where
  updateWindowDims := [1]
  insertedWindowDims := [0]
  scatterDimsToOperandDims := [0]
  indexVectorDim := 1
  wf := scatter_S40000x1_S2000000x1_S2000000x1_1_0_0_1_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S8000x64_S400000x1_S400000x64_1_0_0_1 : ScatterDims S8000x64 S400000x1 S400000x64 where
  updateWindowDims := [1]
  insertedWindowDims := [0]
  scatterDimsToOperandDims := [0]
  indexVectorDim := 1
  wf := scatter_S8000x64_S400000x1_S400000x64_1_0_0_1_wf
def scatter_S8000x1_S400000x1_S400000x1_1_0_0_1 : ScatterDims S8000x1 S400000x1 S400000x1 where
  updateWindowDims := [1]
  insertedWindowDims := [0]
  scatterDimsToOperandDims := [0]
  indexVectorDim := 1
  wf := scatter_S8000x1_S400000x1_S400000x1_1_0_0_1_wf

class Facts : Prop extends Facts₀ where

variable [Facts]
-- ==== Proof.Fold.lean ====
/-
  The program's buffers from the launch to the return, and what each launch finds on entry.

  The program is four launches among stretches of host operations.  The first stretch computes, from the arguments, the
  four mean-aggregated feature arrays and the first launch's bias row; each later stretch is the one reshape of the next
  launch's bias vector into a row.  A launch rewrites only its own result array.  So walking the buffers' contents
  boundary by boundary: every argument array is what it was at the launch of the program wherever a launch reads it; an
  aggregated array is what the first stretch left; each result array is what its launch's write-backs left and is not
  touched afterwards.  The run of the program is restated with every unscoped buffer's final contents named.
-/
import proofs.«124696_j50044958933135_1_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with every unscoped buffer's final contents named -/

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-! ## A buffer that a stretch of host operations does not write keeps its contents -/

/-- The second stretch writes the second launch's bias row only. -/
theorem keeps1 (W : Valuation τ sig (Elt F)) (b : Ref sig .tc) (hb : b ≠ main_v78) :
    StableHlo.after hostOps1 W (Proc.devRef .tc b) = W (Proc.devRef .tc b) :=
  StableHlo.after_of_forall_not_mem _ _ (List.forall_iff_forall_mem.mp (by
    simp only [hostOps1, List.Forall, StableHlo.reshape_writes, Finset.mem_singleton]
    exact StableHlo.devRef_ne_of_ne hb))
/-- The third stretch writes the third launch's bias row only. -/
theorem keeps2 (W : Valuation τ sig (Elt F)) (b : Ref sig .tc) (hb : b ≠ main_v80) :
    StableHlo.after hostOps2 W (Proc.devRef .tc b) = W (Proc.devRef .tc b) :=
  StableHlo.after_of_forall_not_mem _ _ (List.forall_iff_forall_mem.mp (by
    simp only [hostOps2, List.Forall, StableHlo.reshape_writes, Finset.mem_singleton]
    exact StableHlo.devRef_ne_of_ne hb))
/-- The fourth stretch writes the fourth launch's bias row only. -/
theorem keeps3 (W : Valuation τ sig (Elt F)) (b : Ref sig .tc) (hb : b ≠ main_v82) :
    StableHlo.after hostOps3 W (Proc.devRef .tc b) = W (Proc.devRef .tc b) :=
  StableHlo.after_of_forall_not_mem _ _ (List.forall_iff_forall_mem.mp (by
    simp only [hostOps3, List.Forall, StableHlo.reshape_writes, Finset.mem_singleton]
    exact StableHlo.devRef_ne_of_ne hb))

/-- A buffer that is none of the first launch's arrays and not the second bias row is, when the second launch is entered,
    what the first stretch left. -/
theorem W3_eq_W1 (c : Dev nD) (b : Ref sig .tc) (h0 : ∀ w, Pipeline.arrRef spec0 w ≠ b) (h78 : b ≠ main_v78) :
    W3 m ρ c (Proc.devRef .tc b) = W1 m ρ c (Proc.devRef .tc b) :=
  (keeps1 (W2 m ρ c) b h78).trans (W2_of_ne m ρ c b h0)
/-- The same up to the third launch's entry. -/
theorem W5_eq_W1 (c : Dev nD) (b : Ref sig .tc) (h0 : ∀ w, Pipeline.arrRef spec0 w ≠ b) (h1 : ∀ w, Pipeline.arrRef spec1 w ≠ b)
    (h78 : b ≠ main_v78) (h80 : b ≠ main_v80) :
    W5 m ρ c (Proc.devRef .tc b) = W1 m ρ c (Proc.devRef .tc b) :=
  (keeps2 (W4 m ρ c) b h80).trans ((W4_of_ne m ρ c b h1).trans (W3_eq_W1 m ρ c b h0 h78))
/-- The same up to the fourth launch's entry. -/
theorem W7_eq_W1 (c : Dev nD) (b : Ref sig .tc) (h0 : ∀ w, Pipeline.arrRef spec0 w ≠ b) (h1 : ∀ w, Pipeline.arrRef spec1 w ≠ b)
    (h2 : ∀ w, Pipeline.arrRef spec2 w ≠ b) (h78 : b ≠ main_v78) (h80 : b ≠ main_v80) (h82 : b ≠ main_v82) :
    W7 m ρ c (Proc.devRef .tc b) = W1 m ρ c (Proc.devRef .tc b) :=
  (keeps3 (W6 m ρ c) b h82).trans ((W6_of_ne m ρ c b h2).trans (W5_eq_W1 m ρ c b h0 h1 h78 h80))

/-! ## The first stretch writes no argument -/

/-- A tactic for: this reference is written by no operation of the first stretch. -/
macro "first_stretch_keeps" : tactic => `(tactic|
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))
theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by first_stretch_keeps).trans rfl
theorem W1_arg1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) by first_stretch_keeps).trans rfl
theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by first_stretch_keeps).trans rfl
theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by first_stretch_keeps).trans rfl
theorem W1_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by first_stretch_keeps).trans rfl
theorem W1_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by first_stretch_keeps).trans rfl
theorem W1_arg6 (c : Dev nD) : W1 m ρ c (Proc.devRef .tc main_arg6) = m ((c : Thread nD τ).loc main_arg6) :=
  (show StableHlo.after hostOps0 (W0 m ρ c) (Proc.devRef .tc main_arg6) = W0 m ρ c (Proc.devRef .tc main_arg6) by first_stretch_keeps).trans rfl
theorem W1_arg7 (c : Dev nD) : W1 m ρ c (Proc.devRef .tc main_arg7) = m ((c : Thread nD τ).loc main_arg7) :=
  (show StableHlo.after hostOps0 (W0 m ρ c) (Proc.devRef .tc main_arg7) = W0 m ρ c (Proc.devRef .tc main_arg7) by first_stretch_keeps).trans rfl
theorem W1_arg8 (c : Dev nD) : W1 m ρ c (Proc.devRef .tc main_arg8) = m ((c : Thread nD τ).loc main_arg8) :=
  (show StableHlo.after hostOps0 (W0 m ρ c) (Proc.devRef .tc main_arg8) = W0 m ρ c (Proc.devRef .tc main_arg8) by first_stretch_keeps).trans rfl
theorem W1_arg9 (c : Dev nD) : W1 m ρ c (Proc.devRef .tc main_arg9) = m ((c : Thread nD τ).loc main_arg9) :=
  (show StableHlo.after hostOps0 (W0 m ρ c) (Proc.devRef .tc main_arg9) = W0 m ρ c (Proc.devRef .tc main_arg9) by first_stretch_keeps).trans rfl
theorem W1_arg10 (c : Dev nD) : W1 m ρ c (Proc.devRef .tc main_arg10) = m ((c : Thread nD τ).loc main_arg10) :=
  (show StableHlo.after hostOps0 (W0 m ρ c) (Proc.devRef .tc main_arg10) = W0 m ρ c (Proc.devRef .tc main_arg10) by first_stretch_keeps).trans rfl
theorem W1_arg11 (c : Dev nD) : W1 m ρ c (Proc.devRef .tc main_arg11) = m ((c : Thread nD τ).loc main_arg11) :=
  (show StableHlo.after hostOps0 (W0 m ρ c) (Proc.devRef .tc main_arg11) = W0 m ρ c (Proc.devRef .tc main_arg11) by first_stretch_keeps).trans rfl
theorem W1_arg12 (c : Dev nD) : W1 m ρ c (Proc.devRef .tc main_arg12) = m ((c : Thread nD τ).loc main_arg12) :=
  (show StableHlo.after hostOps0 (W0 m ρ c) (Proc.devRef .tc main_arg12) = W0 m ρ c (Proc.devRef .tc main_arg12) by first_stretch_keeps).trans rfl
theorem W1_arg13 (c : Dev nD) : W1 m ρ c (Proc.devRef .tc main_arg13) = m ((c : Thread nD τ).loc main_arg13) :=
  (show StableHlo.after hostOps0 (W0 m ρ c) (Proc.devRef .tc main_arg13) = W0 m ρ c (Proc.devRef .tc main_arg13) by first_stretch_keeps).trans rfl
theorem W1_arg14 (c : Dev nD) : W1 m ρ c (Proc.devRef .tc main_arg14) = m ((c : Thread nD τ).loc main_arg14) :=
  (show StableHlo.after hostOps0 (W0 m ρ c) (Proc.devRef .tc main_arg14) = W0 m ρ c (Proc.devRef .tc main_arg14) by first_stretch_keeps).trans rfl
theorem W1_arg15 (c : Dev nD) : W1 m ρ c (Proc.devRef .tc main_arg15) = m ((c : Thread nD τ).loc main_arg15) :=
  (show StableHlo.after hostOps0 (W0 m ρ c) (Proc.devRef .tc main_arg15) = W0 m ρ c (Proc.devRef .tc main_arg15) by first_stretch_keeps).trans rfl

/-! ## What each launch finds in its plain argument windows -/

/-- The first launch: the paper features, the root weights and the two relations' weights, as launched. -/
theorem V1_arg0 (c : Dev nD) : V1 m ρ c main_arg0 = m ((c : Thread nD τ).loc main_arg0) := W1_arg0 m ρ c
theorem V1_arg4 (c : Dev nD) : V1 m ρ c main_arg4 = m ((c : Thread nD τ).loc main_arg4) := W1_arg4 m ρ c
theorem V1_arg12 (c : Dev nD) : V1 m ρ c main_arg12 = m ((c : Thread nD τ).loc main_arg12) := W1_arg12 m ρ c
theorem V1_arg13 (c : Dev nD) : V1 m ρ c main_arg13 = m ((c : Thread nD τ).loc main_arg13) := W1_arg13 m ρ c
/-- The second launch: the author features and their root weights. -/
theorem V3_arg1 (c : Dev nD) : V3 m ρ c main_arg1 = m ((c : Thread nD τ).loc main_arg1) :=
  (W3_eq_W1 m ρ c main_arg1 (by decide) (by decide)).trans (W1_arg1 m ρ c)
theorem V3_arg6 (c : Dev nD) : V3 m ρ c main_arg6 = m ((c : Thread nD τ).loc main_arg6) :=
  (W3_eq_W1 m ρ c main_arg6 (by decide) (by decide)).trans (W1_arg6 m ρ c)
/-- The third launch: the institution features, their root weights and the affiliation weights. -/
theorem V5_arg2 (c : Dev nD) : V5 m ρ c main_arg2 = m ((c : Thread nD τ).loc main_arg2) :=
  (W5_eq_W1 m ρ c main_arg2 (by decide) (by decide) (by decide) (by decide)).trans (W1_arg2 m ρ c)
theorem V5_arg8 (c : Dev nD) : V5 m ρ c main_arg8 = m ((c : Thread nD τ).loc main_arg8) :=
  (W5_eq_W1 m ρ c main_arg8 (by decide) (by decide) (by decide) (by decide)).trans (W1_arg8 m ρ c)
theorem V5_arg15 (c : Dev nD) : V5 m ρ c main_arg15 = m ((c : Thread nD τ).loc main_arg15) :=
  (W5_eq_W1 m ρ c main_arg15 (by decide) (by decide) (by decide) (by decide)).trans (W1_arg15 m ρ c)
/-- The aggregated affiliation features the third launch finds are what the first stretch left. -/
theorem V5_v75 (c : Dev nD) : V5 m ρ c main_v75 = V1 m ρ c main_v75 :=
  W5_eq_W1 m ρ c main_v75 (by decide) (by decide) (by decide) (by decide)
/-- The fourth launch: the field features, their root weights and the topic weights. -/
theorem V7_arg3 (c : Dev nD) : V7 m ρ c main_arg3 = m ((c : Thread nD τ).loc main_arg3) :=
  (W7_eq_W1 m ρ c main_arg3 (by decide) (by decide) (by decide) (by decide) (by decide) (by decide)).trans (W1_arg3 m ρ c)
theorem V7_arg10 (c : Dev nD) : V7 m ρ c main_arg10 = m ((c : Thread nD τ).loc main_arg10) :=
  (W7_eq_W1 m ρ c main_arg10 (by decide) (by decide) (by decide) (by decide) (by decide) (by decide)).trans (W1_arg10 m ρ c)
theorem V7_arg14 (c : Dev nD) : V7 m ρ c main_arg14 = m ((c : Thread nD τ).loc main_arg14) :=
  (W7_eq_W1 m ρ c main_arg14 (by decide) (by decide) (by decide) (by decide) (by decide) (by decide)).trans (W1_arg14 m ρ c)
/-- The aggregated topic features the fourth launch finds are what the first stretch left. -/
theorem V7_v56 (c : Dev nD) : V7 m ρ c main_v56 = V1 m ρ c main_v56 :=
  W7_eq_W1 m ρ c main_v56 (by decide) (by decide) (by decide) (by decide) (by decide) (by decide)

/-! ## The bias rows: each is its bias vector reshaped to one row -/

/-- The bias vector a later stretch reshapes is still as launched. -/
theorem W2_arg7 (c : Dev nD) : W2 m ρ c (Proc.devRef .tc main_arg7) = m ((c : Thread nD τ).loc main_arg7) :=
  (W2_of_ne m ρ c main_arg7 (by decide)).trans (W1_arg7 m ρ c)
theorem W4_arg9 (c : Dev nD) : W4 m ρ c (Proc.devRef .tc main_arg9) = m ((c : Thread nD τ).loc main_arg9) :=
  (W4_of_ne m ρ c main_arg9 (by decide)).trans ((W3_eq_W1 m ρ c main_arg9 (by decide) (by decide)).trans (W1_arg9 m ρ c))
theorem W6_arg11 (c : Dev nD) : W6 m ρ c (Proc.devRef .tc main_arg11) = m ((c : Thread nD τ).loc main_arg11) :=
  (W6_of_ne m ρ c main_arg11 (by decide)).trans
    ((W5_eq_W1 m ρ c main_arg11 (by decide) (by decide) (by decide) (by decide)).trans (W1_arg11 m ρ c))

/-! ## Each result array at the return is what its launch's write-backs left -/

theorem W8_v83 (c : Dev nD) : W8 m ρ c (Proc.devRef .tc main_v83) = (dat3 (V7 m ρ) c).arrAt 5 cfg3.N := W8_arr m ρ c 5
theorem W8_v81 (c : Dev nD) : W8 m ρ c (Proc.devRef .tc main_v81) = (dat2 (V5 m ρ) c).arrAt 5 cfg2.N :=
  (W8_of_ne m ρ c main_v81 (by decide)).trans ((keeps3 (W6 m ρ c) main_v81 (by decide)).trans (W6_arr m ρ c 5))
theorem W8_v79 (c : Dev nD) : W8 m ρ c (Proc.devRef .tc main_v79) = (dat1 (V3 m ρ) c).arrAt 3 cfg1.N :=
  (W8_of_ne m ρ c main_v79 (by decide)).trans ((keeps3 (W6 m ρ c) main_v79 (by decide)).trans
    ((W6_of_ne m ρ c main_v79 (by decide)).trans ((keeps2 (W4 m ρ c) main_v79 (by decide)).trans (W4_arr m ρ c 3))))
theorem W8_v77 (c : Dev nD) : W8 m ρ c (Proc.devRef .tc main_v77) = (dat0 (V1 m ρ) c).arrAt 7 cfg0.N :=
  (W8_of_ne m ρ c main_v77 (by decide)).trans ((keeps3 (W6 m ρ c) main_v77 (by decide)).trans
    ((W6_of_ne m ρ c main_v77 (by decide)).trans ((keeps2 (W4 m ρ c) main_v77 (by decide)).trans
      ((W4_of_ne m ρ c main_v77 (by decide)).trans ((keeps1 (W2 m ρ c) main_v77 (by decide)).trans (W2_arr m ρ c 7))))))

end Cert.KernelIdeal.Fold

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.HostSide.lean ====
/-
  What the first stretch of host operations leaves for the launches.

  For each relation the program gathers the source nodes' feature rows along the edge list (a negative source index
  wrapped by the number of source nodes first), adds each gathered row into its edge's destination row (a segment sum),
  counts each destination's incoming edges by a segment sum of ones, and divides every summed row by max(count, 1): the
  mean of the neighbours' features, zero where a node has no incoming edge.  Here the count is a vector over the nodes,
  made a column and spread over the 64 lanes.  Three shapes occur: 2000000 edges into 200000 nodes (twice), 2000000 edges
  into 40000 nodes, 400000 edges into 8000 nodes.  The bias vector of each launch is reshaped to one row.
-/
import proofs.«124696_j50044958933135_1_alg».proof.Proof.Fold
import proofs.«124696_j50044958933135_1_alg».proof.Proof.LibRows
import Idealize.ShloMosaic.Lib.StableHlo.Run
import Idealize.ShloMosaic.Lib.ValueIdx

set_option maxRecDepth 16384

noncomputable section

namespace Cert.KernelIdeal.HostSide

open Idealize.ShloMosaic Idealize.ShloMosaic.TcCoe Idealize.SL.Sem Idealize.ShloMosaic.ValueIdx Idealize.ShloMosaic.StableHlo
open Cert.KernelIdeal Cert.KernelIdeal.Gen Cert.KernelIdeal.Fold

/-- The mean over incoming edges, 2000000 edges into 200000 destination nodes, of the rows of x that the edges' sources name. -/
def mean200k (x : FVec Ideal S200000x64 .f32) (src dst : IVec S2000000 32) : FVec Ideal S200000x64 .f32 :=
  Host.divf
    (Host.scatterAdd scatter_S200000x64_S2000000x1_S2000000x64_1_0_0_1
      (broadcastInDim S200000x64 ![] Gen.bcast_S_S200000x64 (constant (F := Ideal) S_ .f32 0x00000000#32))
      (broadcastInDim S2000000x1 ![0] Gen.bcast_S2000000_S2000000x1_0 dst)
      (Host.gather gather_S200000x64_S2000000x1_S2000000x64_1_0_n_n_0_1_164 x
        (broadcastInDim S2000000x1 ![0] Gen.bcast_S2000000_S2000000x1_0
          (select (cmpi .slt src (broadcastInDim S2000000 ![] Gen.bcast_S_S2000000 (constantI S_ 32 0#32)))
            (addi src (broadcastInDim S2000000 ![] Gen.bcast_S_S2000000 (constantI S_ 32 200000#32))) src))))
    (broadcastInDim S200000x64 ![0, 1] Gen.bcast_S200000x1_S200000x64_0_1
      (broadcastInDim S200000x1 ![0] Gen.bcast_S200000_S200000x1_0
        (maximumf
          (Host.scatterAdd scatter_S200000_S2000000x1_S2000000_n_0_0_1
            (broadcastInDim S200000 ![] Gen.bcast_S_S200000 (constant (F := Ideal) S_ .f32 0x00000000#32))
            (broadcastInDim S2000000x1 ![0] Gen.bcast_S2000000_S2000000x1_0 dst)
            (broadcastInDim S2000000 ![] Gen.bcast_S_S2000000 (constant (F := Ideal) S_ .f32 0x3F800000#32)))
          (broadcastInDim S200000 ![] Gen.bcast_S_S200000 (constant (F := Ideal) S_ .f32 0x3F800000#32)))))

/-- The same, 2000000 edges into 40000 destination nodes. -/
def mean40k (x : FVec Ideal S200000x64 .f32) (src dst : IVec S2000000 32) : FVec Ideal S40000x64 .f32 :=
  Host.divf
    (Host.scatterAdd scatter_S40000x64_S2000000x1_S2000000x64_1_0_0_1
      (broadcastInDim S40000x64 ![] Gen.bcast_S_S40000x64 (constant (F := Ideal) S_ .f32 0x00000000#32))
      (broadcastInDim S2000000x1 ![0] Gen.bcast_S2000000_S2000000x1_0 dst)
      (Host.gather gather_S200000x64_S2000000x1_S2000000x64_1_0_n_n_0_1_164 x
        (broadcastInDim S2000000x1 ![0] Gen.bcast_S2000000_S2000000x1_0
          (select (cmpi .slt src (broadcastInDim S2000000 ![] Gen.bcast_S_S2000000 (constantI S_ 32 0#32)))
            (addi src (broadcastInDim S2000000 ![] Gen.bcast_S_S2000000 (constantI S_ 32 200000#32))) src))))
    (broadcastInDim S40000x64 ![0, 1] Gen.bcast_S40000x1_S40000x64_0_1
      (broadcastInDim S40000x1 ![0] Gen.bcast_S40000_S40000x1_0
        (maximumf
          (Host.scatterAdd scatter_S40000_S2000000x1_S2000000_n_0_0_1
            (broadcastInDim S40000 ![] Gen.bcast_S_S40000 (constant (F := Ideal) S_ .f32 0x00000000#32))
            (broadcastInDim S2000000x1 ![0] Gen.bcast_S2000000_S2000000x1_0 dst)
            (broadcastInDim S2000000 ![] Gen.bcast_S_S2000000 (constant (F := Ideal) S_ .f32 0x3F800000#32)))
          (broadcastInDim S40000 ![] Gen.bcast_S_S40000 (constant (F := Ideal) S_ .f32 0x3F800000#32)))))

/-- The same, 400000 edges into 8000 destination nodes. -/
def mean8k (x : FVec Ideal S200000x64 .f32) (src dst : IVec S400000 32) : FVec Ideal S8000x64 .f32 :=
  Host.divf
    (Host.scatterAdd scatter_S8000x64_S400000x1_S400000x64_1_0_0_1
      (broadcastInDim S8000x64 ![] Gen.bcast_S_S8000x64 (constant (F := Ideal) S_ .f32 0x00000000#32))
      (broadcastInDim S400000x1 ![0] Gen.bcast_S400000_S400000x1_0 dst)
      (Host.gather gather_S200000x64_S400000x1_S400000x64_1_0_n_n_0_1_164 x
        (broadcastInDim S400000x1 ![0] Gen.bcast_S400000_S400000x1_0
          (select (cmpi .slt src (broadcastInDim S400000 ![] Gen.bcast_S_S400000 (constantI S_ 32 0#32)))
            (addi src (broadcastInDim S400000 ![] Gen.bcast_S_S400000 (constantI S_ 32 200000#32))) src))))
    (broadcastInDim S8000x64 ![0, 1] Gen.bcast_S8000x1_S8000x64_0_1
      (broadcastInDim S8000x1 ![0] Gen.bcast_S8000_S8000x1_0
        (maximumf
          (Host.scatterAdd scatter_S8000_S400000x1_S400000_n_0_0_1
            (broadcastInDim S8000 ![] Gen.bcast_S_S8000 (constant (F := Ideal) S_ .f32 0x00000000#32))
            (broadcastInDim S400000x1 ![0] Gen.bcast_S400000_S400000x1_0 dst)
            (broadcastInDim S400000 ![] Gen.bcast_S_S400000 (constant (F := Ideal) S_ .f32 0x3F800000#32)))
          (broadcastInDim S8000 ![] Gen.bcast_S_S8000 (constant (F := Ideal) S_ .f32 0x3F800000#32)))))

variable (m : (ℓ : Loc nD τ sig) → Buf (Elt Ideal) ℓ) (ρ : Dev nD → PrngReg)

set_option maxHeartbeats 4000000 in
/-- The citing papers' mean features, as the first launch finds them. -/
theorem V1_v18 (c : Dev nD) : V1 m ρ c main_v18
    = mean200k (m ((c : Thread nD τ).loc main_arg0)) (m ((c : Thread nD τ).loc main_arg16)) (m ((c : Thread nD τ).loc main_arg17)) := by
  show StableHlo.after hostOps0 (W0 m ρ c) (Proc.devRef .tc main_v18) = _
  after_results_simp <;> rfl

set_option maxHeartbeats 4000000 in
/-- The writing authors' mean features, as the first launch finds them. -/
theorem V1_v37 (c : Dev nD) : V1 m ρ c main_v37
    = mean200k (m ((c : Thread nD τ).loc main_arg1)) (m ((c : Thread nD τ).loc main_arg18)) (m ((c : Thread nD τ).loc main_arg19)) := by
  show StableHlo.after hostOps0 (W0 m ρ c) (Proc.devRef .tc main_v37) = _
  after_results_simp <;> rfl

set_option maxHeartbeats 4000000 in
/-- The papers' mean features per field of study, as the first stretch leaves them. -/
theorem V1_v56 (c : Dev nD) : V1 m ρ c main_v56
    = mean40k (m ((c : Thread nD τ).loc main_arg0)) (m ((c : Thread nD τ).loc main_arg20)) (m ((c : Thread nD τ).loc main_arg21)) := by
  show StableHlo.after hostOps0 (W0 m ρ c) (Proc.devRef .tc main_v56) = _
  after_results_simp <;> rfl

set_option maxHeartbeats 4000000 in
/-- The affiliated authors' mean features per institution, as the first stretch leaves them. -/
theorem V1_v75 (c : Dev nD) : V1 m ρ c main_v75
    = mean8k (m ((c : Thread nD τ).loc main_arg1)) (m ((c : Thread nD τ).loc main_arg22)) (m ((c : Thread nD τ).loc main_arg23)) := by
  show StableHlo.after hostOps0 (W0 m ρ c) (Proc.devRef .tc main_v75) = _
  after_results_simp <;> rfl

/-! ## The bias rows -/

set_option maxHeartbeats 4000000 in
/-- The first launch's bias row holds the paper bias vector. -/
theorem V1_v76_row (c : Dev nD) (q : Fin 64) :
    (V1 m ρ c main_v76 : S1x64.Idx → EReal) (ix2 0 q) = (m ((c : Thread nD τ).loc main_arg5) : S64.Idx → EReal) (ix1 q) := by
  have h : V1 m ρ c main_v76 = fun i => shapeCast S1x64 (m ((c : Thread nD τ).loc main_arg5) : S64.Idx → EReal) Gen.shapeCasts_S64_S1x64 i := by
    show StableHlo.after hostOps0 (W0 m ρ c) (Proc.devRef .tc main_v76) = _
    after_results_simp <;> rfl
  rw [h]
  exact Cert.Lib.Rows.shapeCast_vec_row_apply _ _ q

/-- The second launch's bias row holds the author bias vector. -/
theorem V3_v78_row (c : Dev nD) (q : Fin 64) :
    (V3 m ρ c main_v78 : S1x64.Idx → EReal) (ix2 0 q) = (m ((c : Thread nD τ).loc main_arg7) : S64.Idx → EReal) (ix1 q) := by
  have h : V3 m ρ c main_v78 = fun i => shapeCast S1x64 (W2 m ρ c (Proc.devRef .tc main_arg7) : S64.Idx → EReal) Gen.shapeCasts_S64_S1x64 i := by
    show StableHlo.after hostOps1 (W2 m ρ c) (Proc.devRef .tc main_v78) = _
    after_results <;> rfl
  rw [h, W2_arg7]
  exact Cert.Lib.Rows.shapeCast_vec_row_apply _ _ q

/-- The third launch's bias row holds the institution bias vector. -/
theorem V5_v80_row (c : Dev nD) (q : Fin 64) :
    (V5 m ρ c main_v80 : S1x64.Idx → EReal) (ix2 0 q) = (m ((c : Thread nD τ).loc main_arg9) : S64.Idx → EReal) (ix1 q) := by
  have h : V5 m ρ c main_v80 = fun i => shapeCast S1x64 (W4 m ρ c (Proc.devRef .tc main_arg9) : S64.Idx → EReal) Gen.shapeCasts_S64_S1x64 i := by
    show StableHlo.after hostOps2 (W4 m ρ c) (Proc.devRef .tc main_v80) = _
    after_results <;> rfl
  rw [h, W4_arg9]
  exact Cert.Lib.Rows.shapeCast_vec_row_apply _ _ q

/-- The fourth launch's bias row holds the field bias vector. -/
theorem V7_v82_row (c : Dev nD) (q : Fin 64) :
    (V7 m ρ c main_v82 : S1x64.Idx → EReal) (ix2 0 q) = (m ((c : Thread nD τ).loc main_arg11) : S64.Idx → EReal) (ix1 q) := by
  have h : V7 m ρ c main_v82 = fun i => shapeCast S1x64 (W6 m ρ c (Proc.devRef .tc main_arg11) : S64.Idx → EReal) Gen.shapeCasts_S64_S1x64 i := by
    show StableHlo.after hostOps3 (W6 m ρ c) (Proc.devRef .tc main_v82) = _
    after_results <;> rfl
  rw [h, W6_arg11]
  exact Cert.Lib.Rows.shapeCast_vec_row_apply _ _ q

end Cert.KernelIdeal.HostSide

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«124696_j50044958933135_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«124696_j50044958933135_1_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibDenseLayers.lean ====
/-
  Dense layers on the matrix unit, block by block, against the host's whole-array spelling.

  At the ideal values — floats extended reals, every operation exact, a change of float format the identity —
  for any extents:

  * an affine map computed on a block of B rows, `(block of x) · w + (row b spread over the rows)` with the
    operands narrowed to a smaller float format and the product taken into the zero accumulator, read at the
    block-local index (p, q), is the host's `x · w + b` read at (r, q), when row p of the block is row r of x;
  * clamping below at a constant word is the same function on both sides;
  * a product against a matrix [H1 + H2, N] of two arrays joined along their columns is the sum of the two
    products against the upper H1 rows and the lower H2 rows: a sum over H1 + H2 indices is the sum over the first
    H1 plus the sum over the last H2 (only commutativity and associativity of +, so no finiteness is needed);
  * hence the two-product layer `(block of a) · w_top + (block of e) · w_bottom + b` on the matrix unit is the
    host's `concat(a, e) · w + b`.
-/
import proofs.«124696_j50044958933135_1_alg».proof.Proof.LibDotBlocks
import proofs.«124696_j50044958933135_1_alg».proof.Proof.LibRows
import proofs.«124696_j50044958933135_1_alg».proof.Proof.LibRowBroadcast
import Idealize.ShloMosaic.Lib.ValueIdx
import Idealize.ShloMosaic.Lib.Pipeline.Value
import Idealize.ShloMosaic.PureOps.Ideal.Laws
import Mathlib.Algebra.BigOperators.Fin

noncomputable section

namespace Cert.Lib.DenseLayers

open Idealize.ShloMosaic Idealize.ShloMosaic.ValueIdx

/-- A vector [N] broadcast onto axis 1 of the row [1, N], read at (0, q), is the vector at q. -/
theorem vec_row_apply {α : Type} {N : Nat} (b : (⟨1, ![N]⟩ : Shape).Idx → α)
    (hb1 : (⟨1, ![N]⟩ : Shape).BroadcastsInDim ⟨2, ![1, N]⟩ (![1] : Fin 1 → Fin 2)) (q : Fin N) :
    broadcastInDim ⟨2, ![1, N]⟩ (![1] : Fin 1 → Fin 2) hb1 b (ix2 0 q) = b (ix1 q) :=
  broadcastInDim_apply (![1] : Fin 1 → Fin 2) hb1 b (ix2 0 q) (ix1 q) (fun a => by
    match a with
    | ⟨0, _⟩ =>
      show q.val = if N = 1 then 0 else q.val
      by_cases hC : N = 1
      · rw [if_pos hC]; have := q.isLt; omega
      · rw [if_neg hC])

/-- The bias: the block's row [1, N] spread over its B rows, read at (p, q), is the host's vector [N] made a row
    and spread over the M rows, read at (r, q), when the block's row holds the vector. -/
theorem bias_block_apply {α : Type} {M B N : Nat} (b : (⟨1, ![N]⟩ : Shape).Idx → α) (bb : (⟨2, ![1, N]⟩ : Shape).Idx → α)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N) (hb : bb (ix2 0 q) = b (ix1 q)) :
    broadcastTo ⟨2, ![B, N]⟩ bb hbt (ix2 p q)
      = broadcastInDim ⟨2, ![M, N]⟩ (![0, 1] : Fin 2 → Fin 2) hb01
          (broadcastInDim ⟨2, ![1, N]⟩ (![1] : Fin 1 → Fin 2) hb1 b) (ix2 r q) := by
  rw [Cert.Lib.Rows.broadcastTo_row_apply, Cert.Lib.RowBroadcast.broadcastInDim_row_apply, vec_row_apply, hb]

/-- An affine map on a block of rows is the host's affine map at the block's rows. -/
theorem affine_block_apply {M B K N : Nat} {ψ₁ ψ₂ : FTy}
    (X : FVec Ideal ⟨2, ![M, K]⟩ .f32) (W : FVec Ideal ⟨2, ![K, N]⟩ .f32) (b : FVec Ideal ⟨1, ![N]⟩ .f32)
    (xb : FVec Ideal ⟨2, ![B, K]⟩ .f32) (wb : FVec Ideal ⟨2, ![K, N]⟩ .f32) (bb : FVec Ideal ⟨2, ![1, N]⟩ .f32)
    (g₁ : ψ₁.bits < FTy.f32.bits) (g₂ : ψ₂.bits < FTy.f32.bits) (prec prec' : Option ContractPrecision)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (hx : ∀ k : Fin K, xb (ix2 p k) = X (ix2 r k)) (hw : ∀ k : Fin K, wb (ix2 k q) = W (ix2 k q))
    (hb : bb (ix2 0 q) = b (ix1 q)) :
    addf (matmul (DotDims.plain B K N) prec (truncf ψ₁ xb g₁) (truncf ψ₂ wb g₂) (constant (F := Ideal) ⟨2, ![B, N]⟩ .f32 0x00000000#32))
        (broadcastTo ⟨2, ![B, N]⟩ bb hbt) (ix2 p q)
      = addf (Host.dotGeneral (DotDims.plain M K N) prec' X W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, bias_block_apply b bb hbt hb1 hb01 p r q hb,
    Cert.Lib.DotBlocks.matmul_block_eq_dotGeneral prec prec' X W (truncf ψ₁ xb g₁) (truncf ψ₂ wb g₂) p q r q hx hw]

/-- Clamping below at the constant word z: the vector unit's `max(A, splat z)` at an index is the host's
    `max(A', broadcast of the scalar constant z)` at an index where A and A' agree. -/
theorem relu_eq {s t : Shape} (A : FVec Ideal s .f32) (A' : FVec Ideal t .f32) (z : BitVec FTy.f32.bits) (i : s.Idx) (j : t.Idx)
    (h0 : (⟨0, ![]⟩ : Shape).BroadcastsInDim t (![] : Fin 0 → Fin t.rank)) (hA : A i = A' j) :
    maximumf A (broadcast s (Scalar.ofBits (F := Ideal) .f32 z)) i
      = maximumf A' (broadcastInDim t (![] : Fin 0 → Fin t.rank) h0 (constant (F := Ideal) ⟨0, ![]⟩ .f32 z)) j := by
  rw [maximumf_apply, maximumf_apply, hA,
    Cert.Lib.RowBroadcast.broadcastInDim_scalar_apply _ h0 j (fun a => a.elim0)]
  rfl

/-- A sum over K = K1 + K2 indices is the sum over the first K1 plus the sum over the last K2. -/
theorem sum_split {β : Type} [AddCommMonoid β] {K K1 K2 : Nat} (hK : K = K1 + K2) (f : Fin K → β) :
    ∑ k : Fin K, f k = (∑ k : Fin K1, f ⟨k.val, by omega⟩) + ∑ k : Fin K2, f ⟨K1 + k.val, by omega⟩ := by
  subst hK
  rw [Fin.sum_univ_add]
  rfl

/-- The host's product of two arrays joined along their columns against a matrix [H1 + H2, N], read at (r, q): the
    first array against the upper H1 rows plus the second against the lower H2 rows. -/
theorem concat_dot_apply {M K H1 H2 N : Nat} (hK : K = H1 + H2)
    (A : FVec Ideal ⟨2, ![M, H1]⟩ .f32) (E : FVec Ideal ⟨2, ![M, H2]⟩ .f32) (W : FVec Ideal ⟨2, ![K, N]⟩ .f32)
    (hc : Shape.Concatenates [(⟨2, ![M, H1]⟩ : Shape), ⟨2, ![M, H2]⟩] ⟨2, ![M, K]⟩ 1)
    (prec : Option ContractPrecision) (r : Fin M) (q : Fin N) :
    Host.dotGeneral (DotDims.plain M K N) prec
        (concatenate (⟨2, ![M, K]⟩ : Shape) 1 [⟨(⟨2, ![M, H1]⟩ : Shape), A⟩, ⟨(⟨2, ![M, H2]⟩ : Shape), E⟩] hc) W (ix2 r q)
      = (∑ k : Fin H1, A (ix2 r k) * W (ix2 ⟨k.val, by omega⟩ q))
        + ∑ k : Fin H2, E (ix2 r k) * W (ix2 ⟨H1 + k.val, by omega⟩ q) := by
  rw [Cert.Lib.RowBlocks.dotGeneral_plain_apply, sum_split hK]
  congr 1
  · refine Finset.sum_congr rfl fun k _ => ?_
    rw [concatenate_pair_apply_left (t := (⟨2, ![M, K]⟩ : Shape)) (1 : Fin 2) A E hc (ix2 r ⟨k.val, by omega⟩) rfl (ix2 r k)
      (fun b => by match b with | ⟨0, _⟩ => rfl | ⟨1, _⟩ => rfl)]
  · refine Finset.sum_congr rfl fun k _ => ?_
    rw [concatenate_pair_apply_right (t := (⟨2, ![M, K]⟩ : Shape)) (1 : Fin 2) A E hc (ix2 r ⟨H1 + k.val, by omega⟩) rfl rfl (ix2 r k)
      (fun b hb => by match b with | ⟨0, _⟩ => rfl | ⟨1, _⟩ => exact absurd rfl hb)
      (by show k.val + H1 = H1 + k.val; omega)]

/-- The two-product layer on a block of rows is the host's product of the joined arrays, plus the bias. -/
theorem dual_block_apply {M B K H1 H2 N : Nat} {ψ₁ ψ₂ ψ₃ ψ₄ : FTy} (hK : K = H1 + H2)
    (A : FVec Ideal ⟨2, ![M, H1]⟩ .f32) (E : FVec Ideal ⟨2, ![M, H2]⟩ .f32) (W : FVec Ideal ⟨2, ![K, N]⟩ .f32)
    (b : FVec Ideal ⟨1, ![N]⟩ .f32)
    (ab : FVec Ideal ⟨2, ![B, H1]⟩ .f32) (eb : FVec Ideal ⟨2, ![B, H2]⟩ .f32)
    (wt : FVec Ideal ⟨2, ![H1, N]⟩ .f32) (wl : FVec Ideal ⟨2, ![H2, N]⟩ .f32) (bb : FVec Ideal ⟨2, ![1, N]⟩ .f32)
    (g₁ : ψ₁.bits < FTy.f32.bits) (g₂ : ψ₂.bits < FTy.f32.bits) (g₃ : ψ₃.bits < FTy.f32.bits) (g₄ : ψ₄.bits < FTy.f32.bits)
    (prec₁ prec₂ prec' : Option ContractPrecision)
    (hc : Shape.Concatenates [(⟨2, ![M, H1]⟩ : Shape), ⟨2, ![M, H2]⟩] ⟨2, ![M, K]⟩ 1)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (ha : ∀ k : Fin H1, ab (ix2 p k) = A (ix2 r k)) (he : ∀ k : Fin H2, eb (ix2 p k) = E (ix2 r k))
    (hwt : ∀ k : Fin H1, wt (ix2 k q) = W (ix2 ⟨k.val, by omega⟩ q))
    (hwl : ∀ k : Fin H2, wl (ix2 k q) = W (ix2 ⟨H1 + k.val, by omega⟩ q))
    (hb : bb (ix2 0 q) = b (ix1 q)) :
    addf (addf (matmul (DotDims.plain B H1 N) prec₁ (truncf ψ₁ ab g₁) (truncf ψ₂ wt g₂) (constant (F := Ideal) ⟨2, ![B, N]⟩ .f32 0x00000000#32))
               (matmul (DotDims.plain B H2 N) prec₂ (truncf ψ₃ eb g₃) (truncf ψ₄ wl g₄) (constant (F := Ideal) ⟨2, ![B, N]⟩ .f32 0x00000000#32)))
        (broadcastTo ⟨2, ![B, N]⟩ bb hbt) (ix2 p q)
      = addf (Host.dotGeneral (DotDims.plain M K N) prec'
                (concatenate (⟨2, ![M, K]⟩ : Shape) 1 [⟨(⟨2, ![M, H1]⟩ : Shape), A⟩, ⟨(⟨2, ![M, H2]⟩ : Shape), E⟩] hc) W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, addf_apply, bias_block_apply b bb hbt hb1 hb01 p r q hb, concat_dot_apply hK,
    Cert.Lib.PlainDot.matmul_plain_zero_apply, Cert.Lib.PlainDot.matmul_plain_zero_apply]
  congr 2
  · exact Finset.sum_congr rfl fun k _ => congrArg₂ (fun u v : EReal => u * v) (ha k) (hwt k)
  · exact Finset.sum_congr rfl fun k _ => congrArg₂ (fun u v : EReal => u * v) (he k) (hwl k)

end Cert.Lib.DenseLayers

end
-- ==== Proof.LibRelLayers.lean ====
/-
  The dense node update of a relational graph layer, on a block of rows of the matrix unit, against the host's
  whole-array spelling.

  A node type's update is  x · W_root + b  plus, for each incoming relation, (mean of the neighbours' features) · W_rel,
  the terms added in this order.  The matrix unit computes it on a block of B rows at a time: every operand block is
  narrowed to a smaller float format (the identity at the ideal values, where a float is an extended real and every
  operation exact), each product is taken into the zero accumulator, the bias row [1, N] is spread over the B rows.  The
  host computes it on whole arrays.  Read at the block-local index (p, q), the block's value is the host's value at
  (r, q), where r is the row of the whole arrays that row p of the blocks is: every product is one and the same sum over
  the contraction index on both sides, and the sums are added in the same order, so no finiteness is needed.
-/
import proofs.«124696_j50044958933135_1_alg».proof.Proof.LibDenseLayers

noncomputable section

namespace Cert.Lib.RelLayers

open Idealize.ShloMosaic Idealize.ShloMosaic.ValueIdx

variable {M B K N : Nat} {ψ₁ ψ₂ : FTy}

/-- A node type with no incoming relation: the block's  x · W + b  is the host's at the block's rows.  (The bias row
    goes through an identity reshape first.) -/
theorem root_block
    (X : FVec Ideal ⟨2, ![M, K]⟩ .f32) (W : FVec Ideal ⟨2, ![K, N]⟩ .f32) (b : FVec Ideal ⟨1, ![N]⟩ .f32)
    (xb : FVec Ideal ⟨2, ![B, K]⟩ .f32) (wb : FVec Ideal ⟨2, ![K, N]⟩ .f32) (bb : FVec Ideal ⟨2, ![1, N]⟩ .f32)
    (g₁ : ψ₁.bits < FTy.f32.bits) (g₂ : ψ₂.bits < FTy.f32.bits) (prec prec' : Option ContractPrecision)
    (hs : (⟨2, ![1, N]⟩ : Shape).ShapeCasts ⟨2, ![1, N]⟩)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (hx : ∀ k : Fin K, xb (ix2 p k) = X (ix2 r k)) (hw : ∀ k : Fin K, wb (ix2 k q) = W (ix2 k q))
    (hb : bb (ix2 0 q) = b (ix1 q)) :
    addf (matmul (DotDims.plain B K N) prec (truncf ψ₁ xb g₁) (truncf ψ₂ wb g₂) (constant (F := Ideal) ⟨2, ![B, N]⟩ .f32 0x00000000#32))
        (broadcastTo ⟨2, ![B, N]⟩ (shapeCast ⟨2, ![1, N]⟩ bb hs) hbt) (ix2 p q)
      = addf (Host.dotGeneral (DotDims.plain M K N) prec' X W)
          (broadcastInDim ⟨2, ![M, N]⟩ (![0, 1] : Fin 2 → Fin 2) hb01
            (broadcastInDim ⟨2, ![1, N]⟩ (![1] : Fin 1 → Fin 2) hb1 b)) (ix2 r q) := by
  rw [shapeCast_self]
  exact Cert.Lib.DenseLayers.affine_block_apply X W b xb wb bb g₁ g₂ prec prec' hbt hb1 hb01 p r q hx hw hb

/-- One relation's term on a block: (block of the aggregated features, through an identity reshape, narrowed) times the
    relation's weights is the host's product at the block's rows. -/
theorem rel_block {H : Nat} {ψ₃ ψ₄ : FTy}
    (A : FVec Ideal ⟨2, ![M, H]⟩ .f32) (W : FVec Ideal ⟨2, ![H, N]⟩ .f32)
    (ab : FVec Ideal ⟨2, ![B, H]⟩ .f32) (wb : FVec Ideal ⟨2, ![H, N]⟩ .f32)
    (g₃ : ψ₃.bits < FTy.f32.bits) (g₄ : ψ₄.bits < FTy.f32.bits) (prec prec' : Option ContractPrecision)
    (hs : (⟨2, ![B, H]⟩ : Shape).ShapeCasts ⟨2, ![B, H]⟩)
    (p : Fin B) (r : Fin M) (q : Fin N)
    (ha : ∀ k : Fin H, ab (ix2 p k) = A (ix2 r k)) (hw : ∀ k : Fin H, wb (ix2 k q) = W (ix2 k q)) :
    matmul (DotDims.plain B H N) prec (truncf ψ₃ (shapeCast ⟨2, ![B, H]⟩ ab hs) g₃) (truncf ψ₄ wb g₄)
        (constant (F := Ideal) ⟨2, ![B, N]⟩ .f32 0x00000000#32) (ix2 p q)
      = Host.dotGeneral (DotDims.plain M H N) prec' A W (ix2 r q) := by
  rw [shapeCast_self]
  exact Cert.Lib.DotBlocks.matmul_block_eq_dotGeneral prec prec' A W (truncf ψ₃ ab g₃) (truncf ψ₄ wb g₄) p q r q ha hw

/-- Adding a further term on both sides: if two arrays agree at a pair of indices and so do two others, their sums do. -/
theorem addf_at {s t : Shape} {φ : FTy} (a a' : FVec Ideal s φ) (c c' : FVec Ideal t φ) (i : s.Idx) (j : t.Idx)
    (h1 : a i = c j) (h2 : a' i = c' j) : addf a a' i = addf c c' j := by
  rw [addf_apply, addf_apply, h1, h2]

end Cert.Lib.RelLayers

end
-- ==== Proof.PaperRows.lean ====
/-
  The paper rows.  The first launch updates the 200000 paper nodes, which have two incoming relations (papers citing them,
  authors writing them):  out = ((x · W + b) + a₁ · W₁) + a₂ · W₂,  a₁ and a₂ the two relations' mean neighbour
  features, computed 10000 rows at a time over a grid of 20 points.  Point t reads rows 10000 t … 10000 t + 9999 of x, a₁
  and a₂, the three whole weight matrices and the whole bias row, and writes the same rows of the result.  So what point t
  writes back is block t of the host's whole-array expression (each product's entry is the same sum over the 64
  contraction indices on a block as on the whole array, and the three terms are added in the same order), and since the
  20 blocks tile the result array, the array ends holding that function of the arrays the launch finds.
-/
import proofs.«124696_j50044958933135_1_alg».proof.Proof.Gen.KernelIdeal.Frame
import proofs.«124696_j50044958933135_1_alg».proof.Proof.LibRelLayers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PaperRows

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The update over whole arrays, in the host's spelling: x · W plus the bias vector made a row and spread over the rows, plus each relation's mean features times its weights, added in order. -/
def update (x : FVec Ideal S200000x64 .f32) (w : FVec Ideal S64x64 .f32) (b : FVec Ideal S64 .f32) (a1 : FVec Ideal S200000x64 .f32) (w1 : FVec Ideal S64x64 .f32) (a2 : FVec Ideal S200000x64 .f32) (w2 : FVec Ideal S64x64 .f32) : FVec Ideal S200000x64 .f32 :=
  addf (addf (addf (Host.dotGeneral (DotDims.plain 200000 64 64) none x w)
      (broadcastInDim S200000x64 (![0, 1] : Fin 2 → Fin 2) (by decide)
        (broadcastInDim S1x64 (![1] : Fin 1 → Fin 2) (by decide) b)))
    (Host.dotGeneral (DotDims.plain 200000 64 64) none a1 w1))
    (Host.dotGeneral (DotDims.plain 200000 64 64) none a2 w2)

/-- The printed matrix-product dimension numbers are the plain ones, rows × contraction times contraction × columns. -/
theorem dims_plain : dot_S10000x64_S64x64_S10000x64_1_0_0_1_n_n = DotDims.plain 10000 64 64 := rfl

/-- The body's value at a block-local index is the whole-array update at the array index of the same row and lane, when
    each row block holds that row of its array, each weight block is its weight matrix and the bias block's row is the
    bias vector. -/
theorem body_value (X : FVec Ideal S200000x64 .f32) (W : FVec Ideal S64x64 .f32) (b : FVec Ideal S64 .f32) (A1 : FVec Ideal S200000x64 .f32) (W1 : FVec Ideal S64x64 .f32) (A2 : FVec Ideal S200000x64 .f32) (W2 : FVec Ideal S64x64 .f32)
    (x0 : Vec Ideal S10000x64 .f32) (x1 : Vec Ideal S64x64 .f32) (x2 : Vec Ideal S1x64 .f32) (x3 : Vec Ideal S10000x64 .f32) (x4 : Vec Ideal S64x64 .f32) (x5 : Vec Ideal S10000x64 .f32) (x6 : Vec Ideal S64x64 .f32)
    (p : Fin 10000) (r : Fin 200000) (q : Fin 64)
    (hx : ∀ k : Fin 64, x0 (ix2 p k) = X (ix2 r k)) (hw : ∀ k : Fin 64, x1 (ix2 k q) = W (ix2 k q))
    (hb : x2 (ix2 0 q) = b (ix1 q))
    (ha1 : ∀ k : Fin 64, x3 (ix2 p k) = A1 (ix2 r k)) (hw1 : ∀ k : Fin 64, x4 (ix2 k q) = W1 (ix2 k q))
    (ha2 : ∀ k : Fin 64, x5 (ix2 p k) = A2 (ix2 r k)) (hw2 : ∀ k : Fin 64, x6 (ix2 k q) = W2 (ix2 k q)) :
    k0_pay1 x0 x1 x2 x3 x4 x5 x6 (ix2 p q) = update X W b A1 W1 A2 W2 (ix2 r q) := by
  unfold k0_pay1 update
  rw [dims_plain]
  exact Cert.Lib.RelLayers.addf_at _ _ _ _ _ _
    (Cert.Lib.RelLayers.addf_at _ _ _ _ _ _
    (Cert.Lib.RelLayers.root_block X W b x0 x1 x2 _ _ none none _ _ _ _ p r q hx hw hb)
    (Cert.Lib.RelLayers.rel_block A1 W1 x3 x4 _ _ none none _ p r q ha1 hw1))
    (Cert.Lib.RelLayers.rel_block A2 W2 x5 x6 _ _ none none _ p r q ha2 hw2)

/-- The same with the two indices given as variables and their coordinates by equations. -/
theorem block_value (X : FVec Ideal S200000x64 .f32) (W : FVec Ideal S64x64 .f32) (b : FVec Ideal S64 .f32) (A1 : FVec Ideal S200000x64 .f32) (W1 : FVec Ideal S64x64 .f32) (A2 : FVec Ideal S200000x64 .f32) (W2 : FVec Ideal S64x64 .f32)
    (x0 : Vec Ideal S10000x64 .f32) (x1 : Vec Ideal S64x64 .f32) (x2 : Vec Ideal S1x64 .f32) (x3 : Vec Ideal S10000x64 .f32) (x4 : Vec Ideal S64x64 .f32) (x5 : Vec Ideal S10000x64 .f32) (x6 : Vec Ideal S64x64 .f32)
    (y : S10000x64.Idx) (i : S200000x64.Idx) (p : Fin 10000) (q : Fin 64) (r : Fin 200000)
    (hy : y = ix2 p q) (hi : i = ix2 r q)
    (hx : ∀ k : Fin 64, x0 (ix2 p k) = X (ix2 r k)) (hw : ∀ k : Fin 64, x1 (ix2 k q) = W (ix2 k q))
    (hb : x2 (ix2 0 q) = b (ix1 q))
    (ha1 : ∀ k : Fin 64, x3 (ix2 p k) = A1 (ix2 r k)) (hw1 : ∀ k : Fin 64, x4 (ix2 k q) = W1 (ix2 k q))
    (ha2 : ∀ k : Fin 64, x5 (ix2 p k) = A2 (ix2 r k)) (hw2 : ∀ k : Fin 64, x6 (ix2 k q) = W2 (ix2 k q)) :
    k0_pay1 x0 x1 x2 x3 x4 x5 x6 y = update X W b A1 W1 A2 W2 i := by
  subst hy hi
  exact body_value X W b A1 W1 A2 W2 x0 x1 x2 x3 x4 x5 x6 p r q hx hw hb ha1 hw1 ha2 hw2

/-- The printed index maps over the grid: the row blocks move with the point, the weight matrices and the bias row stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What point t writes back is block t of the whole-array update of the arrays the launch finds. -/
theorem flushed_eq (c : Dev nD) (b : FVec Ideal S64 .f32)
    (hb : ∀ q : Fin 64, (V c main_v76 : S1x64.Idx → EReal) (ix2 0 q) = b (ix1 q)) (t : Fin cfg0.N) :
    (dat0 V c).flushed 7 t
      = ((cfg0.win 7).blk t).view.read (Elt Ideal) (update (V c main_arg0) (V c main_arg4) b (V c main_v18) (V c main_arg12) (V c main_v37) (V c main_arg13)) := by
  show (cfg0.win 7).cut (grid0.coords t) ((dat0 V c).after 7 t) = _
  rw [after0_7]
  unfold out0_7
  rw [View.canon_unit_zero offsets_zero]
  simp only [View.ld_unit_zero (S := S10000x64) offsets_zero, View.ld_unit_zero (S := S64x64) offsets_zero,
    View.ld_unit_zero (S := S1x64) offsets_zero]
  obtain ⟨e0, e1, e2, e3, e4, e5, e6, e7, e8, e9, e10, e11, e12, e13, e14, e15⟩ := index_facts t
  funext j
  have hj0 : (j 0).val < 10000 := (j 0).isLt
  have hj1 : (j 1).val < 64 := (j 1).isLt
  have ht : t.val < 20 := t.isLt
  show k0_pay1 (iblk0 V c 0 t) (iblk0 V c 1 t) (iblk0 V c 2 t) (iblk0 V c 3 t) (iblk0 V c 4 t) (iblk0 V c 5 t) (iblk0 V c 6 t) j
    = update (V c main_arg0) (V c main_arg4) b (V c main_v18) (V c main_arg12) (V c main_v37) (V c main_arg13) (((cfg0.win 7).blk t).view.emb j)
  refine block_value (V c main_arg0) (V c main_arg4) b (V c main_v18) (V c main_arg12) (V c main_v37) (V c main_arg13) _ _ _ _ _ _ _ j _ ⟨(j 0).val, hj0⟩ ⟨(j 1).val, hj1⟩
    ⟨t.val * 10000 + (j 0).val, by omega⟩ ?_ ?_ (fun k => ?_) (fun k => ?_) ?_ (fun k => ?_) (fun k => ?_) (fun k => ?_) (fun k => ?_)
  · funext a; apply Fin.ext
    match a with
    | ⟨0, _⟩ => rfl
    | ⟨1, _⟩ => rfl
  · funext a; apply Fin.ext
    match a with
    | ⟨0, _⟩ => show win0_7.index t (0 : Fin 2) * 10000 + 1 * (j 0).val = t.val * 10000 + (j 0).val; omega
    | ⟨1, _⟩ => show win0_7.index t (1 : Fin 2) * 64 + 1 * (j 1).val = (j 1).val; omega
  · show V c main_arg0 (((cfg0.win 0).blk t).view.emb (ix2 (⟨(j 0).val, hj0⟩ : Fin 10000) k)) = V c main_arg0 _
    refine congrArg (V c main_arg0) ?_
    funext a; apply Fin.ext
    match a with
    | ⟨0, _⟩ => show win0_0.index t (0 : Fin 2) * 10000 + 1 * (j 0).val = t.val * 10000 + (j 0).val; omega
    | ⟨1, _⟩ => show win0_0.index t (1 : Fin 2) * 64 + 1 * k.val = k.val; omega
  · show V c main_arg4 (((cfg0.win 1).blk t).view.emb (ix2 k (⟨(j 1).val, hj1⟩ : Fin 64))) = V c main_arg4 _
    refine congrArg (V c main_arg4) ?_
    funext a; apply Fin.ext
    match a with
    | ⟨0, _⟩ => show win0_1.index t (0 : Fin 2) * 64 + 1 * k.val = k.val; omega
    | ⟨1, _⟩ => show win0_1.index t (1 : Fin 2) * 64 + 1 * (j 1).val = (j 1).val; omega
  · refine Eq.trans ?_ (hb ⟨(j 1).val, hj1⟩)
    show V c main_v76 (((cfg0.win 2).blk t).view.emb (ix2 (0 : Fin 1) (⟨(j 1).val, hj1⟩ : Fin 64))) = V c main_v76 _
    refine congrArg (V c main_v76) ?_
    funext a; apply Fin.ext
    match a with
    | ⟨0, _⟩ => show win0_2.index t (0 : Fin 2) * 1 + 1 * 0 = 0; omega
    | ⟨1, _⟩ => show win0_2.index t (1 : Fin 2) * 64 + 1 * (j 1).val = (j 1).val; omega
  · show V c main_v18 (((cfg0.win 3).blk t).view.emb (ix2 (⟨(j 0).val, hj0⟩ : Fin 10000) k)) = V c main_v18 _
    refine congrArg (V c main_v18) ?_
    funext a; apply Fin.ext
    match a with
    | ⟨0, _⟩ => show win0_3.index t (0 : Fin 2) * 10000 + 1 * (j 0).val = t.val * 10000 + (j 0).val; omega
    | ⟨1, _⟩ => show win0_3.index t (1 : Fin 2) * 64 + 1 * k.val = k.val; omega
  · show V c main_arg12 (((cfg0.win 4).blk t).view.emb (ix2 k (⟨(j 1).val, hj1⟩ : Fin 64))) = V c main_arg12 _
    refine congrArg (V c main_arg12) ?_
    funext a; apply Fin.ext
    match a with
    | ⟨0, _⟩ => show win0_4.index t (0 : Fin 2) * 64 + 1 * k.val = k.val; omega
    | ⟨1, _⟩ => show win0_4.index t (1 : Fin 2) * 64 + 1 * (j 1).val = (j 1).val; omega
  · show V c main_v37 (((cfg0.win 5).blk t).view.emb (ix2 (⟨(j 0).val, hj0⟩ : Fin 10000) k)) = V c main_v37 _
    refine congrArg (V c main_v37) ?_
    funext a; apply Fin.ext
    match a with
    | ⟨0, _⟩ => show win0_5.index t (0 : Fin 2) * 10000 + 1 * (j 0).val = t.val * 10000 + (j 0).val; omega
    | ⟨1, _⟩ => show win0_5.index t (1 : Fin 2) * 64 + 1 * k.val = k.val; omega
  · show V c main_arg13 (((cfg0.win 6).blk t).view.emb (ix2 k (⟨(j 1).val, hj1⟩ : Fin 64))) = V c main_arg13 _
    refine congrArg (V c main_arg13) ?_
    funext a; apply Fin.ext
    match a with
    | ⟨0, _⟩ => show win0_6.index t (0 : Fin 2) * 64 + 1 * k.val = k.val; omega
    | ⟨1, _⟩ => show win0_6.index t (1 : Fin 2) * 64 + 1 * (j 1).val = (j 1).val; omega

/-- An index of the result array is in point t's block iff each coordinate is in the block's range on its axis. -/
theorem mem_block (t : Fin cfg0.N) (i : S200000x64.Idx) :
    i ∈ ((cfg0.win 7).blk t).view.set ↔ ∀ a : Fin 2, win0_7.index t a * S10000x64.size a ≤ (i a).val
      ∧ (i a).val < win0_7.index t a * S10000x64.size a + S10000x64.size a := by
  show i ∈ ((View.whole main_v77).slice (win0_7.rect t)).set ↔ _
  rw [View.set_slice_whole, Rect.mem_set_unit]
  exact Iff.rfl

/-- Every row of the result lies in the block of the point numbered by the row's quotient by 10000. -/
theorem covered (i : S200000x64.Idx) :
    ∃ t : Fin cfg0.N, (cfg0.win 7).flush t = true ∧ i ∈ ((cfg0.win 7).blk t).view.set := by
  have hi0 : (i 0).val < 200000 := (i 0).isLt
  have hi1 : (i 1).val < 64 := (i 1).isLt
  have hN : cfg0.N = 20 := rfl
  let t : Fin cfg0.N := ⟨(i 0).val / 10000, by rw [hN]; omega⟩
  obtain ⟨e0, e1, e2, e3, e4, e5, e6, e7, e8, e9, e10, e11, e12, e13, e14, e15⟩ := index_facts t
  have htv : t.val = (i 0).val / 10000 := rfl
  refine ⟨t, flush0_7 t, ?_⟩
  rw [mem_block]
  intro a
  match a with
  | ⟨0, _⟩ =>
    show win0_7.index t (0 : Fin 2) * 10000 ≤ (i 0).val ∧ (i 0).val < win0_7.index t (0 : Fin 2) * 10000 + 10000
    omega
  | ⟨1, _⟩ =>
    show win0_7.index t (1 : Fin 2) * 64 ≤ (i 1).val ∧ (i 1).val < win0_7.index t (1 : Fin 2) * 64 + 64
    omega

/-- THE RESULT ARRAY of the launch: the whole-array update of the arrays the launch finds, for the bias vector b whose
    row the bias window's array holds. -/
theorem final (c : Dev nD) (b : FVec Ideal S64 .f32)
    (hb : ∀ q : Fin 64, (V c main_v76 : S1x64.Idx → EReal) (ix2 0 q) = b (ix1 q)) :
    (dat0 V c).arrAt 7 cfg0.N = update (V c main_arg0) (V c main_arg4) b (V c main_v18) (V c main_arg12) (V c main_v37) (V c main_arg13) :=
  (dat0 V c).arrAt_eq_of_cover 7 (update (V c main_arg0) (V c main_arg4) b (V c main_v18) (V c main_arg12) (V c main_v37) (V c main_arg13)) (fun t _ => flushed_eq V c b hb t) covered

end Cert.KernelIdeal.PaperRows

end
-- ==== Proof.AuthorRows.lean ====
/-
  The author rows.  The second launch updates the 200000 author nodes, which have no incoming relation:
  out = x · W + b, computed 10000 rows at a time over a grid of 20 points.  Point t reads rows 10000 t … 10000 t + 9999 of
  x, the whole weight matrix and the whole bias row, and writes the same rows of the result.  So what point t writes back
  is block t of the host's whole-array  x · W + b  (at the ideal values each entry of the block's product is the same sum
  over the 64 contraction indices as the whole product's entry), and since the 20 blocks tile the result array, the array
  ends holding that function of the arrays the launch finds.
-/
import proofs.«124696_j50044958933135_1_alg».proof.Proof.Gen.KernelIdeal.Frame
import proofs.«124696_j50044958933135_1_alg».proof.Proof.LibRelLayers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.AuthorRows

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The update over whole arrays, in the host's spelling: x · W plus the bias vector made a row and spread over the rows. -/
def update (x : FVec Ideal S200000x64 .f32) (w : FVec Ideal S64x64 .f32) (b : FVec Ideal S64 .f32) : FVec Ideal S200000x64 .f32 :=
  addf (Host.dotGeneral (DotDims.plain 200000 64 64) none x w)
    (broadcastInDim S200000x64 (![0, 1] : Fin 2 → Fin 2) (by decide)
      (broadcastInDim S1x64 (![1] : Fin 1 → Fin 2) (by decide) b))

/-- The printed matrix-product dimension numbers are the plain ones, rows × contraction times contraction × columns. -/
theorem dims_plain : dot_S10000x64_S64x64_S10000x64_1_0_0_1_n_n = DotDims.plain 10000 64 64 := rfl

/-- The body's value at a block-local index is the whole-array update at the array index of the same row and lane, when
    the block of x holds that row, the weight block is the weight matrix and the bias block's row is the bias vector. -/
theorem body_value (X : FVec Ideal S200000x64 .f32) (W : FVec Ideal S64x64 .f32) (b : FVec Ideal S64 .f32)
    (x0 : Vec Ideal S10000x64 .f32) (x1 : Vec Ideal S64x64 .f32) (x2 : Vec Ideal S1x64 .f32)
    (p : Fin 10000) (r : Fin 200000) (q : Fin 64)
    (hx : ∀ k : Fin 64, x0 (ix2 p k) = X (ix2 r k)) (hw : ∀ k : Fin 64, x1 (ix2 k q) = W (ix2 k q))
    (hb : x2 (ix2 0 q) = b (ix1 q)) :
    k1_pay1 x0 x1 x2 (ix2 p q) = update X W b (ix2 r q) := by
  unfold k1_pay1 update
  rw [dims_plain]
  exact Cert.Lib.RelLayers.root_block X W b x0 x1 x2 _ _ none none _ _ _ _ p r q hx hw hb

/-- The same with the two indices given as variables and their coordinates by equations. -/
theorem block_value (X : FVec Ideal S200000x64 .f32) (W : FVec Ideal S64x64 .f32) (b : FVec Ideal S64 .f32)
    (x0 : Vec Ideal S10000x64 .f32) (x1 : Vec Ideal S64x64 .f32) (x2 : Vec Ideal S1x64 .f32)
    (y : S10000x64.Idx) (i : S200000x64.Idx) (p : Fin 10000) (q : Fin 64) (r : Fin 200000)
    (hy : y = ix2 p q) (hi : i = ix2 r q)
    (hx : ∀ k : Fin 64, x0 (ix2 p k) = X (ix2 r k)) (hw : ∀ k : Fin 64, x1 (ix2 k q) = W (ix2 k q))
    (hb : x2 (ix2 0 q) = b (ix1 q)) :
    k1_pay1 x0 x1 x2 y = update X W b i := by
  subst hy hi
  exact body_value X W b x0 x1 x2 p r q hx hw hb

/-- The printed index maps over the grid: the row blocks of x and of the result move with the point, the weight matrix
    and the bias row stay. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array update of the arrays the launch finds. -/
theorem flushed_eq (c : Dev nD) (b : FVec Ideal S64 .f32)
    (hb : ∀ q : Fin 64, (V c main_v78 : S1x64.Idx → EReal) (ix2 0 q) = b (ix1 q)) (t : Fin cfg1.N) :
    (dat1 V c).flushed 3 t
      = ((cfg1.win 3).blk t).view.read (Elt Ideal) (update (V c main_arg1) (V c main_arg6) b) := by
  show (cfg1.win 3).cut (grid1.coords t) ((dat1 V c).after 3 t) = _
  rw [after1_3]
  unfold out1_3
  rw [View.canon_unit_zero offsets_zero]
  simp only [View.ld_unit_zero (S := S10000x64) offsets_zero, View.ld_unit_zero (S := S64x64) offsets_zero,
    View.ld_unit_zero (S := S1x64) offsets_zero]
  obtain ⟨e0, e1, e2, e3, e4, e5, e6, e7⟩ := index_facts t
  funext j
  have hj0 : (j 0).val < 10000 := (j 0).isLt
  have hj1 : (j 1).val < 64 := (j 1).isLt
  have ht : t.val < 20 := t.isLt
  show k1_pay1 (iblk1 V c 0 t) (iblk1 V c 1 t) (iblk1 V c 2 t) j
    = update (V c main_arg1) (V c main_arg6) b (((cfg1.win 3).blk t).view.emb j)
  refine block_value (V c main_arg1) (V c main_arg6) b _ _ _ j _ ⟨(j 0).val, hj0⟩ ⟨(j 1).val, hj1⟩
    ⟨t.val * 10000 + (j 0).val, by omega⟩ ?_ ?_ (fun k => ?_) (fun k => ?_) ?_
  · funext a; apply Fin.ext
    match a with
    | ⟨0, _⟩ => rfl
    | ⟨1, _⟩ => rfl
  · funext a; apply Fin.ext
    match a with
    | ⟨0, _⟩ => show win1_3.index t (0 : Fin 2) * 10000 + 1 * (j 0).val = t.val * 10000 + (j 0).val; omega
    | ⟨1, _⟩ => show win1_3.index t (1 : Fin 2) * 64 + 1 * (j 1).val = (j 1).val; omega
  · show V c main_arg1 (((cfg1.win 0).blk t).view.emb (ix2 (⟨(j 0).val, hj0⟩ : Fin 10000) k)) = V c main_arg1 _
    refine congrArg (V c main_arg1) ?_
    funext a; apply Fin.ext
    match a with
    | ⟨0, _⟩ => show win1_0.index t (0 : Fin 2) * 10000 + 1 * (j 0).val = t.val * 10000 + (j 0).val; omega
    | ⟨1, _⟩ => show win1_0.index t (1 : Fin 2) * 64 + 1 * k.val = k.val; omega
  · show V c main_arg6 (((cfg1.win 1).blk t).view.emb (ix2 k (⟨(j 1).val, hj1⟩ : Fin 64))) = V c main_arg6 _
    refine congrArg (V c main_arg6) ?_
    funext a; apply Fin.ext
    match a with
    | ⟨0, _⟩ => show win1_1.index t (0 : Fin 2) * 64 + 1 * k.val = k.val; omega
    | ⟨1, _⟩ => show win1_1.index t (1 : Fin 2) * 64 + 1 * (j 1).val = (j 1).val; omega
  · refine Eq.trans ?_ (hb ⟨(j 1).val, hj1⟩)
    show V c main_v78 (((cfg1.win 2).blk t).view.emb (ix2 (0 : Fin 1) (⟨(j 1).val, hj1⟩ : Fin 64))) = V c main_v78 _
    refine congrArg (V c main_v78) ?_
    funext a; apply Fin.ext
    match a with
    | ⟨0, _⟩ => show win1_2.index t (0 : Fin 2) * 1 + 1 * 0 = 0; omega
    | ⟨1, _⟩ => show win1_2.index t (1 : Fin 2) * 64 + 1 * (j 1).val = (j 1).val; omega

/-- An index of the result array is in point t's block iff each coordinate is in the block's range on its axis. -/
theorem mem_block (t : Fin cfg1.N) (i : S200000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v79).slice (win1_3.rect t)).set ↔ _
  rw [View.set_slice_whole, Rect.mem_set_unit]
  exact Iff.rfl

/-- Every row of the result lies in the block of the point numbered by the row's quotient by 10000. -/
theorem covered (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  have hN : cfg1.N = 20 := rfl
  let t : Fin cfg1.N := ⟨(i 0).val / 10000, by rw [hN]; omega⟩
  obtain ⟨e0, e1, e2, e3, e4, e5, e6, e7⟩ := index_facts t
  have htv : t.val = (i 0).val / 10000 := rfl
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- THE RESULT ARRAY of the launch: the whole-array update of the arrays the launch finds, for the bias vector b whose
    row the bias window's array holds. -/
theorem final (c : Dev nD) (b : FVec Ideal S64 .f32)
    (hb : ∀ q : Fin 64, (V c main_v78 : S1x64.Idx → EReal) (ix2 0 q) = b (ix1 q)) :
    (dat1 V c).arrAt 3 cfg1.N = update (V c main_arg1) (V c main_arg6) b :=
  (dat1 V c).arrAt_eq_of_cover 3 (update (V c main_arg1) (V c main_arg6) b) (fun t _ => flushed_eq V c b hb t) covered

end Cert.KernelIdeal.AuthorRows

end
-- ==== Proof.InstRows.lean ====
/-
  The institution rows.  The third launch updates the 8000 institution nodes, which have one incoming relation
  (affiliated authors):  out = (x · W + b) + a · W₁,  a the relation's mean neighbour features, all 8000 rows in one
  grid point.  The point reads the whole arrays and writes the whole result, so what it writes back is the host's
  whole-array expression (each product's entry is the same sum over the 64 contraction indices), and its one block is the
  result array.
-/
import proofs.«124696_j50044958933135_1_alg».proof.Proof.Gen.KernelIdeal.Frame
import proofs.«124696_j50044958933135_1_alg».proof.Proof.LibRelLayers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.InstRows

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The update over whole arrays, in the host's spelling: x · W plus the bias vector made a row and spread over the rows, plus each relation's mean features times its weights, added in order. -/
def update (x : FVec Ideal S8000x64 .f32) (w : FVec Ideal S64x64 .f32) (b : FVec Ideal S64 .f32) (a1 : FVec Ideal S8000x64 .f32) (w1 : FVec Ideal S64x64 .f32) : FVec Ideal S8000x64 .f32 :=
  addf (addf (Host.dotGeneral (DotDims.plain 8000 64 64) none x w)
      (broadcastInDim S8000x64 (![0, 1] : Fin 2 → Fin 2) (by decide)
        (broadcastInDim S1x64 (![1] : Fin 1 → Fin 2) (by decide) b)))
    (Host.dotGeneral (DotDims.plain 8000 64 64) none a1 w1)

/-- The printed matrix-product dimension numbers are the plain ones, rows × contraction times contraction × columns. -/
theorem dims_plain : dot_S8000x64_S64x64_S8000x64_1_0_0_1_n_n = DotDims.plain 8000 64 64 := rfl

/-- The body's value at a block-local index is the whole-array update at the array index of the same row and lane, when
    each row block holds that row of its array, each weight block is its weight matrix and the bias block's row is the
    bias vector. -/
theorem body_value (X : FVec Ideal S8000x64 .f32) (W : FVec Ideal S64x64 .f32) (b : FVec Ideal S64 .f32) (A1 : FVec Ideal S8000x64 .f32) (W1 : FVec Ideal S64x64 .f32)
    (x0 : Vec Ideal S8000x64 .f32) (x1 : Vec Ideal S64x64 .f32) (x2 : Vec Ideal S1x64 .f32) (x3 : Vec Ideal S8000x64 .f32) (x4 : Vec Ideal S64x64 .f32)
    (p : Fin 8000) (r : Fin 8000) (q : Fin 64)
    (hx : ∀ k : Fin 64, x0 (ix2 p k) = X (ix2 r k)) (hw : ∀ k : Fin 64, x1 (ix2 k q) = W (ix2 k q))
    (hb : x2 (ix2 0 q) = b (ix1 q))
    (ha1 : ∀ k : Fin 64, x3 (ix2 p k) = A1 (ix2 r k)) (hw1 : ∀ k : Fin 64, x4 (ix2 k q) = W1 (ix2 k q)) :
    k2_pay1 x0 x1 x2 x3 x4 (ix2 p q) = update X W b A1 W1 (ix2 r q) := by
  unfold k2_pay1 update
  rw [dims_plain]
  exact Cert.Lib.RelLayers.addf_at _ _ _ _ _ _
    (Cert.Lib.RelLayers.root_block X W b x0 x1 x2 _ _ none none _ _ _ _ p r q hx hw hb)
    (Cert.Lib.RelLayers.rel_block A1 W1 x3 x4 _ _ none none _ p r q ha1 hw1)

/-- The same with the two indices given as variables and their coordinates by equations. -/
theorem block_value (X : FVec Ideal S8000x64 .f32) (W : FVec Ideal S64x64 .f32) (b : FVec Ideal S64 .f32) (A1 : FVec Ideal S8000x64 .f32) (W1 : FVec Ideal S64x64 .f32)
    (x0 : Vec Ideal S8000x64 .f32) (x1 : Vec Ideal S64x64 .f32) (x2 : Vec Ideal S1x64 .f32) (x3 : Vec Ideal S8000x64 .f32) (x4 : Vec Ideal S64x64 .f32)
    (y : S8000x64.Idx) (i : S8000x64.Idx) (p : Fin 8000) (q : Fin 64) (r : Fin 8000)
    (hy : y = ix2 p q) (hi : i = ix2 r q)
    (hx : ∀ k : Fin 64, x0 (ix2 p k) = X (ix2 r k)) (hw : ∀ k : Fin 64, x1 (ix2 k q) = W (ix2 k q))
    (hb : x2 (ix2 0 q) = b (ix1 q))
    (ha1 : ∀ k : Fin 64, x3 (ix2 p k) = A1 (ix2 r k)) (hw1 : ∀ k : Fin 64, x4 (ix2 k q) = W1 (ix2 k q)) :
    k2_pay1 x0 x1 x2 x3 x4 y = update X W b A1 W1 i := by
  subst hy hi
  exact body_value X W b A1 W1 x0 x1 x2 x3 x4 p r q hx hw hb ha1 hw1

/-- The printed index maps over the grid: the row blocks move with the point, the weight matrices and the bias row stay. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the whole-array update of the arrays the launch finds. -/
theorem flushed_eq (c : Dev nD) (b : FVec Ideal S64 .f32)
    (hb : ∀ q : Fin 64, (V c main_v80 : S1x64.Idx → EReal) (ix2 0 q) = b (ix1 q)) (t : Fin cfg2.N) :
    (dat2 V c).flushed 5 t
      = ((cfg2.win 5).blk t).view.read (Elt Ideal) (update (V c main_arg2) (V c main_arg8) b (V c main_v75) (V c main_arg15)) := by
  show (cfg2.win 5).cut (grid2.coords t) ((dat2 V c).after 5 t) = _
  rw [after2_5]
  unfold out2_5
  rw [View.canon_unit_zero offsets_zero]
  simp only [View.ld_unit_zero (S := S8000x64) offsets_zero, View.ld_unit_zero (S := S64x64) offsets_zero,
    View.ld_unit_zero (S := S1x64) offsets_zero]
  obtain ⟨e0, e1, e2, e3, e4, e5, e6, e7, e8, e9, e10, e11⟩ := index_facts t
  funext j
  have hj0 : (j 0).val < 8000 := (j 0).isLt
  have hj1 : (j 1).val < 64 := (j 1).isLt
  have ht : t.val < 1 := t.isLt
  show k2_pay1 (iblk2 V c 0 t) (iblk2 V c 1 t) (iblk2 V c 2 t) (iblk2 V c 3 t) (iblk2 V c 4 t) j
    = update (V c main_arg2) (V c main_arg8) b (V c main_v75) (V c main_arg15) (((cfg2.win 5).blk t).view.emb j)
  refine block_value (V c main_arg2) (V c main_arg8) b (V c main_v75) (V c main_arg15) _ _ _ _ _ j _ ⟨(j 0).val, hj0⟩ ⟨(j 1).val, hj1⟩
    ⟨t.val * 8000 + (j 0).val, by omega⟩ ?_ ?_ (fun k => ?_) (fun k => ?_) ?_ (fun k => ?_) (fun k => ?_)
  · funext a; apply Fin.ext
    match a with
    | ⟨0, _⟩ => rfl
    | ⟨1, _⟩ => rfl
  · funext a; apply Fin.ext
    match a with
    | ⟨0, _⟩ => show win2_5.index t (0 : Fin 2) * 8000 + 1 * (j 0).val = t.val * 8000 + (j 0).val; omega
    | ⟨1, _⟩ => show win2_5.index t (1 : Fin 2) * 64 + 1 * (j 1).val = (j 1).val; omega
  · show V c main_arg2 (((cfg2.win 0).blk t).view.emb (ix2 (⟨(j 0).val, hj0⟩ : Fin 8000) k)) = V c main_arg2 _
    refine congrArg (V c main_arg2) ?_
    funext a; apply Fin.ext
    match a with
    | ⟨0, _⟩ => show win2_0.index t (0 : Fin 2) * 8000 + 1 * (j 0).val = t.val * 8000 + (j 0).val; omega
    | ⟨1, _⟩ => show win2_0.index t (1 : Fin 2) * 64 + 1 * k.val = k.val; omega
  · show V c main_arg8 (((cfg2.win 1).blk t).view.emb (ix2 k (⟨(j 1).val, hj1⟩ : Fin 64))) = V c main_arg8 _
    refine congrArg (V c main_arg8) ?_
    funext a; apply Fin.ext
    match a with
    | ⟨0, _⟩ => show win2_1.index t (0 : Fin 2) * 64 + 1 * k.val = k.val; omega
    | ⟨1, _⟩ => show win2_1.index t (1 : Fin 2) * 64 + 1 * (j 1).val = (j 1).val; omega
  · refine Eq.trans ?_ (hb ⟨(j 1).val, hj1⟩)
    show V c main_v80 (((cfg2.win 2).blk t).view.emb (ix2 (0 : Fin 1) (⟨(j 1).val, hj1⟩ : Fin 64))) = V c main_v80 _
    refine congrArg (V c main_v80) ?_
    funext a; apply Fin.ext
    match a with
    | ⟨0, _⟩ => show win2_2.index t (0 : Fin 2) * 1 + 1 * 0 = 0; omega
    | ⟨1, _⟩ => show win2_2.index t (1 : Fin 2) * 64 + 1 * (j 1).val = (j 1).val; omega
  · show V c main_v75 (((cfg2.win 3).blk t).view.emb (ix2 (⟨(j 0).val, hj0⟩ : Fin 8000) k)) = V c main_v75 _
    refine congrArg (V c main_v75) ?_
    funext a; apply Fin.ext
    match a with
    | ⟨0, _⟩ => show win2_3.index t (0 : Fin 2) * 8000 + 1 * (j 0).val = t.val * 8000 + (j 0).val; omega
    | ⟨1, _⟩ => show win2_3.index t (1 : Fin 2) * 64 + 1 * k.val = k.val; omega
  · show V c main_arg15 (((cfg2.win 4).blk t).view.emb (ix2 k (⟨(j 1).val, hj1⟩ : Fin 64))) = V c main_arg15 _
    refine congrArg (V c main_arg15) ?_
    funext a; apply Fin.ext
    match a with
    | ⟨0, _⟩ => show win2_4.index t (0 : Fin 2) * 64 + 1 * k.val = k.val; omega
    | ⟨1, _⟩ => show win2_4.index t (1 : Fin 2) * 64 + 1 * (j 1).val = (j 1).val; omega

/-- An index of the result array is in point t's block iff each coordinate is in the block's range on its axis. -/
theorem mem_block (t : Fin cfg2.N) (i : S8000x64.Idx) :
    i ∈ ((cfg2.win 5).blk t).view.set ↔ ∀ a : Fin 2, win2_5.index t a * S8000x64.size a ≤ (i a).val
      ∧ (i a).val < win2_5.index t a * S8000x64.size a + S8000x64.size a := by
  show i ∈ ((View.whole main_v81).slice (win2_5.rect t)).set ↔ _
  rw [View.set_slice_whole, Rect.mem_set_unit]
  exact Iff.rfl

/-- Every row of the result lies in the block of the point numbered by the row's quotient by 8000. -/
theorem covered (i : S8000x64.Idx) :
    ∃ t : Fin cfg2.N, (cfg2.win 5).flush t = true ∧ i ∈ ((cfg2.win 5).blk t).view.set := by
  have hi0 : (i 0).val < 8000 := (i 0).isLt
  have hi1 : (i 1).val < 64 := (i 1).isLt
  have hN : cfg2.N = 1 := rfl
  let t : Fin cfg2.N := ⟨(i 0).val / 8000, by rw [hN]; omega⟩
  obtain ⟨e0, e1, e2, e3, e4, e5, e6, e7, e8, e9, e10, e11⟩ := index_facts t
  have htv : t.val = (i 0).val / 8000 := rfl
  refine ⟨t, flush2_5 t, ?_⟩
  rw [mem_block]
  intro a
  match a with
  | ⟨0, _⟩ =>
    show win2_5.index t (0 : Fin 2) * 8000 ≤ (i 0).val ∧ (i 0).val < win2_5.index t (0 : Fin 2) * 8000 + 8000
    omega
  | ⟨1, _⟩ =>
    show win2_5.index t (1 : Fin 2) * 64 ≤ (i 1).val ∧ (i 1).val < win2_5.index t (1 : Fin 2) * 64 + 64
    omega

/-- THE RESULT ARRAY of the launch: the whole-array update of the arrays the launch finds, for the bias vector b whose
    row the bias window's array holds. -/
theorem final (c : Dev nD) (b : FVec Ideal S64 .f32)
    (hb : ∀ q : Fin 64, (V c main_v80 : S1x64.Idx → EReal) (ix2 0 q) = b (ix1 q)) :
    (dat2 V c).arrAt 5 cfg2.N = update (V c main_arg2) (V c main_arg8) b (V c main_v75) (V c main_arg15) :=
  (dat2 V c).arrAt_eq_of_cover 5 (update (V c main_arg2) (V c main_arg8) b (V c main_v75) (V c main_arg15)) (fun t _ => flushed_eq V c b hb t) covered

end Cert.KernelIdeal.InstRows

end
-- ==== Proof.FieldRows.lean ====
/-
  The field rows.  The fourth launch updates the 40000 field-of-study nodes, which have one incoming relation (papers on
  the topic):  out = (x · W + b) + a · W₁,  a the relation's mean neighbour features, computed 10000 rows at a time over
  a grid of 4 points.  Point t reads rows 10000 t … 10000 t + 9999 of x and a, the two whole weight matrices and the whole
  bias row, and writes the same rows of the result.  So what point t writes back is block t of the host's whole-array
  expression, and since the 4 blocks tile the result array, the array ends holding that function of the arrays the launch
  finds.
-/
import proofs.«124696_j50044958933135_1_alg».proof.Proof.Gen.KernelIdeal.Frame
import proofs.«124696_j50044958933135_1_alg».proof.Proof.LibRelLayers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FieldRows

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The update over whole arrays, in the host's spelling: x · W plus the bias vector made a row and spread over the rows, plus each relation's mean features times its weights, added in order. -/
def update (x : FVec Ideal S40000x64 .f32) (w : FVec Ideal S64x64 .f32) (b : FVec Ideal S64 .f32) (a1 : FVec Ideal S40000x64 .f32) (w1 : FVec Ideal S64x64 .f32) : FVec Ideal S40000x64 .f32 :=
  addf (addf (Host.dotGeneral (DotDims.plain 40000 64 64) none x w)
      (broadcastInDim S40000x64 (![0, 1] : Fin 2 → Fin 2) (by decide)
        (broadcastInDim S1x64 (![1] : Fin 1 → Fin 2) (by decide) b)))
    (Host.dotGeneral (DotDims.plain 40000 64 64) none a1 w1)

/-- The printed matrix-product dimension numbers are the plain ones, rows × contraction times contraction × columns. -/
theorem dims_plain : dot_S10000x64_S64x64_S10000x64_1_0_0_1_n_n = DotDims.plain 10000 64 64 := rfl

/-- The body's value at a block-local index is the whole-array update at the array index of the same row and lane, when
    each row block holds that row of its array, each weight block is its weight matrix and the bias block's row is the
    bias vector. -/
theorem body_value (X : FVec Ideal S40000x64 .f32) (W : FVec Ideal S64x64 .f32) (b : FVec Ideal S64 .f32) (A1 : FVec Ideal S40000x64 .f32) (W1 : FVec Ideal S64x64 .f32)
    (x0 : Vec Ideal S10000x64 .f32) (x1 : Vec Ideal S64x64 .f32) (x2 : Vec Ideal S1x64 .f32) (x3 : Vec Ideal S10000x64 .f32) (x4 : Vec Ideal S64x64 .f32)
    (p : Fin 10000) (r : Fin 40000) (q : Fin 64)
    (hx : ∀ k : Fin 64, x0 (ix2 p k) = X (ix2 r k)) (hw : ∀ k : Fin 64, x1 (ix2 k q) = W (ix2 k q))
    (hb : x2 (ix2 0 q) = b (ix1 q))
    (ha1 : ∀ k : Fin 64, x3 (ix2 p k) = A1 (ix2 r k)) (hw1 : ∀ k : Fin 64, x4 (ix2 k q) = W1 (ix2 k q)) :
    k3_pay1 x0 x1 x2 x3 x4 (ix2 p q) = update X W b A1 W1 (ix2 r q) := by
  unfold k3_pay1 update
  rw [dims_plain]
  exact Cert.Lib.RelLayers.addf_at _ _ _ _ _ _
    (Cert.Lib.RelLayers.root_block X W b x0 x1 x2 _ _ none none _ _ _ _ p r q hx hw hb)
    (Cert.Lib.RelLayers.rel_block A1 W1 x3 x4 _ _ none none _ p r q ha1 hw1)

/-- The same with the two indices given as variables and their coordinates by equations. -/
theorem block_value (X : FVec Ideal S40000x64 .f32) (W : FVec Ideal S64x64 .f32) (b : FVec Ideal S64 .f32) (A1 : FVec Ideal S40000x64 .f32) (W1 : FVec Ideal S64x64 .f32)
    (x0 : Vec Ideal S10000x64 .f32) (x1 : Vec Ideal S64x64 .f32) (x2 : Vec Ideal S1x64 .f32) (x3 : Vec Ideal S10000x64 .f32) (x4 : Vec Ideal S64x64 .f32)
    (y : S10000x64.Idx) (i : S40000x64.Idx) (p : Fin 10000) (q : Fin 64) (r : Fin 40000)
    (hy : y = ix2 p q) (hi : i = ix2 r q)
    (hx : ∀ k : Fin 64, x0 (ix2 p k) = X (ix2 r k)) (hw : ∀ k : Fin 64, x1 (ix2 k q) = W (ix2 k q))
    (hb : x2 (ix2 0 q) = b (ix1 q))
    (ha1 : ∀ k : Fin 64, x3 (ix2 p k) = A1 (ix2 r k)) (hw1 : ∀ k : Fin 64, x4 (ix2 k q) = W1 (ix2 k q)) :
    k3_pay1 x0 x1 x2 x3 x4 y = update X W b A1 W1 i := by
  subst hy hi
  exact body_value X W b A1 W1 x0 x1 x2 x3 x4 p r q hx hw hb ha1 hw1

/-- The printed index maps over the grid: the row blocks move with the point, the weight matrices and the bias row stay. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the whole-array update of the arrays the launch finds. -/
theorem flushed_eq (c : Dev nD) (b : FVec Ideal S64 .f32)
    (hb : ∀ q : Fin 64, (V c main_v82 : S1x64.Idx → EReal) (ix2 0 q) = b (ix1 q)) (t : Fin cfg3.N) :
    (dat3 V c).flushed 5 t
      = ((cfg3.win 5).blk t).view.read (Elt Ideal) (update (V c main_arg3) (V c main_arg10) b (V c main_v56) (V c main_arg14)) := by
  show (cfg3.win 5).cut (grid3.coords t) ((dat3 V c).after 5 t) = _
  rw [after3_5]
  unfold out3_5
  rw [View.canon_unit_zero offsets_zero]
  simp only [View.ld_unit_zero (S := S10000x64) offsets_zero, View.ld_unit_zero (S := S64x64) offsets_zero,
    View.ld_unit_zero (S := S1x64) offsets_zero]
  obtain ⟨e0, e1, e2, e3, e4, e5, e6, e7, e8, e9, e10, e11⟩ := index_facts t
  funext j
  have hj0 : (j 0).val < 10000 := (j 0).isLt
  have hj1 : (j 1).val < 64 := (j 1).isLt
  have ht : t.val < 4 := t.isLt
  show k3_pay1 (iblk3 V c 0 t) (iblk3 V c 1 t) (iblk3 V c 2 t) (iblk3 V c 3 t) (iblk3 V c 4 t) j
    = update (V c main_arg3) (V c main_arg10) b (V c main_v56) (V c main_arg14) (((cfg3.win 5).blk t).view.emb j)
  refine block_value (V c main_arg3) (V c main_arg10) b (V c main_v56) (V c main_arg14) _ _ _ _ _ j _ ⟨(j 0).val, hj0⟩ ⟨(j 1).val, hj1⟩
    ⟨t.val * 10000 + (j 0).val, by omega⟩ ?_ ?_ (fun k => ?_) (fun k => ?_) ?_ (fun k => ?_) (fun k => ?_)
  · funext a; apply Fin.ext
    match a with
    | ⟨0, _⟩ => rfl
    | ⟨1, _⟩ => rfl
  · funext a; apply Fin.ext
    match a with
    | ⟨0, _⟩ => show win3_5.index t (0 : Fin 2) * 10000 + 1 * (j 0).val = t.val * 10000 + (j 0).val; omega
    | ⟨1, _⟩ => show win3_5.index t (1 : Fin 2) * 64 + 1 * (j 1).val = (j 1).val; omega
  · show V c main_arg3 (((cfg3.win 0).blk t).view.emb (ix2 (⟨(j 0).val, hj0⟩ : Fin 10000) k)) = V c main_arg3 _
    refine congrArg (V c main_arg3) ?_
    funext a; apply Fin.ext
    match a with
    | ⟨0, _⟩ => show win3_0.index t (0 : Fin 2) * 10000 + 1 * (j 0).val = t.val * 10000 + (j 0).val; omega
    | ⟨1, _⟩ => show win3_0.index t (1 : Fin 2) * 64 + 1 * k.val = k.val; omega
  · show V c main_arg10 (((cfg3.win 1).blk t).view.emb (ix2 k (⟨(j 1).val, hj1⟩ : Fin 64))) = V c main_arg10 _
    refine congrArg (V c main_arg10) ?_
    funext a; apply Fin.ext
    match a with
    | ⟨0, _⟩ => show win3_1.index t (0 : Fin 2) * 64 + 1 * k.val = k.val; omega
    | ⟨1, _⟩ => show win3_1.index t (1 : Fin 2) * 64 + 1 * (j 1).val = (j 1).val; omega
  · refine Eq.trans ?_ (hb ⟨(j 1).val, hj1⟩)
    show V c main_v82 (((cfg3.win 2).blk t).view.emb (ix2 (0 : Fin 1) (⟨(j 1).val, hj1⟩ : Fin 64))) = V c main_v82 _
    refine congrArg (V c main_v82) ?_
    funext a; apply Fin.ext
    match a with
    | ⟨0, _⟩ => show win3_2.index t (0 : Fin 2) * 1 + 1 * 0 = 0; omega
    | ⟨1, _⟩ => show win3_2.index t (1 : Fin 2) * 64 + 1 * (j 1).val = (j 1).val; omega
  · show V c main_v56 (((cfg3.win 3).blk t).view.emb (ix2 (⟨(j 0).val, hj0⟩ : Fin 10000) k)) = V c main_v56 _
    refine congrArg (V c main_v56) ?_
    funext a; apply Fin.ext
    match a with
    | ⟨0, _⟩ => show win3_3.index t (0 : Fin 2) * 10000 + 1 * (j 0).val = t.val * 10000 + (j 0).val; omega
    | ⟨1, _⟩ => show win3_3.index t (1 : Fin 2) * 64 + 1 * k.val = k.val; omega
  · show V c main_arg14 (((cfg3.win 4).blk t).view.emb (ix2 k (⟨(j 1).val, hj1⟩ : Fin 64))) = V c main_arg14 _
    refine congrArg (V c main_arg14) ?_
    funext a; apply Fin.ext
    match a with
    | ⟨0, _⟩ => show win3_4.index t (0 : Fin 2) * 64 + 1 * k.val = k.val; omega
    | ⟨1, _⟩ => show win3_4.index t (1 : Fin 2) * 64 + 1 * (j 1).val = (j 1).val; omega

/-- An index of the result array is in point t's block iff each coordinate is in the block's range on its axis. -/
theorem mem_block (t : Fin cfg3.N) (i : S40000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v83).slice (win3_5.rect t)).set ↔ _
  rw [View.set_slice_whole, Rect.mem_set_unit]
  exact Iff.rfl

/-- Every row of the result lies in the block of the point numbered by the row's quotient by 10000. -/
theorem covered (i : S40000x64.Idx) :
    ∃ t : Fin cfg3.N, (cfg3.win 5).flush t = true ∧ i ∈ ((cfg3.win 5).blk t).view.set := by
  have hi0 : (i 0).val < 40000 := (i 0).isLt
  have hi1 : (i 1).val < 64 := (i 1).isLt
  have hN : cfg3.N = 4 := rfl
  let t : Fin cfg3.N := ⟨(i 0).val / 10000, by rw [hN]; omega⟩
  obtain ⟨e0, e1, e2, e3, e4, e5, e6, e7, e8, e9, e10, e11⟩ := index_facts t
  have htv : t.val = (i 0).val / 10000 := rfl
  refine ⟨t, flush3_5 t, ?_⟩
  rw [mem_block]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 64 ≤ (i 1).val ∧ (i 1).val < win3_5.index t (1 : Fin 2) * 64 + 64
    omega

/-- THE RESULT ARRAY of the launch: the whole-array update of the arrays the launch finds, for the bias vector b whose
    row the bias window's array holds. -/
theorem final (c : Dev nD) (b : FVec Ideal S64 .f32)
    (hb : ∀ q : Fin 64, (V c main_v82 : S1x64.Idx → EReal) (ix2 0 q) = b (ix1 q)) :
    (dat3 V c).arrAt 5 cfg3.N = update (V c main_arg3) (V c main_arg10) b (V c main_v56) (V c main_arg14) :=
  (dat3 V c).arrAt_eq_of_cover 5 (update (V c main_arg3) (V c main_arg10) b (V c main_v56) (V c main_arg14)) (fun t _ => flushed_eq V c b hb t) covered

end Cert.KernelIdeal.FieldRows

end
-- ==== Proof.Results.lean ====
/-
  The four result arrays of the program, as functions of its arguments.

  Each launch's result array is the whole-array update of what the launch finds; what it finds are the arguments as
  launched, the mean neighbour features the first stretch of host operations computed from the arguments, and its bias
  vector as one row.  Put together: at the return the four result buffers hold the four updates of the arguments, and
  the arguments are unchanged.
-/
import proofs.«124696_j50044958933135_1_alg».proof.Proof.Fold
import proofs.«124696_j50044958933135_1_alg».proof.Proof.HostSide
import proofs.«124696_j50044958933135_1_alg».proof.Proof.PaperRows
import proofs.«124696_j50044958933135_1_alg».proof.Proof.AuthorRows
import proofs.«124696_j50044958933135_1_alg».proof.Proof.InstRows
import proofs.«124696_j50044958933135_1_alg».proof.Proof.FieldRows

set_option maxRecDepth 16384

noncomputable section

namespace Cert.KernelIdeal.Results

open Idealize.ShloMosaic Idealize.ShloMosaic.TcCoe Idealize.SL.Sem Idealize.ShloMosaic.ValueIdx
open Cert.KernelIdeal Cert.KernelIdeal.Gen Cert.KernelIdeal.Fold Cert.KernelIdeal.HostSide

variable (m : (ℓ : Loc nD τ sig) → Buf (Elt Ideal) ℓ) (ρ : Dev nD → PrngReg)

/-- The updated paper rows, of the arguments. -/
def paper (c : Dev nD) : FVec Ideal S200000x64 .f32 :=
  PaperRows.update (m ((c : Thread nD τ).loc main_arg0)) (m ((c : Thread nD τ).loc main_arg4)) (m ((c : Thread nD τ).loc main_arg5))
    (mean200k (m ((c : Thread nD τ).loc main_arg0)) (m ((c : Thread nD τ).loc main_arg16)) (m ((c : Thread nD τ).loc main_arg17))) (m ((c : Thread nD τ).loc main_arg12))
    (mean200k (m ((c : Thread nD τ).loc main_arg1)) (m ((c : Thread nD τ).loc main_arg18)) (m ((c : Thread nD τ).loc main_arg19))) (m ((c : Thread nD τ).loc main_arg13))
/-- The updated author rows. -/
def author (c : Dev nD) : FVec Ideal S200000x64 .f32 :=
  AuthorRows.update (m ((c : Thread nD τ).loc main_arg1)) (m ((c : Thread nD τ).loc main_arg6)) (m ((c : Thread nD τ).loc main_arg7))
/-- The updated institution rows. -/
def inst (c : Dev nD) : FVec Ideal S8000x64 .f32 :=
  InstRows.update (m ((c : Thread nD τ).loc main_arg2)) (m ((c : Thread nD τ).loc main_arg8)) (m ((c : Thread nD τ).loc main_arg9))
    (mean8k (m ((c : Thread nD τ).loc main_arg1)) (m ((c : Thread nD τ).loc main_arg22)) (m ((c : Thread nD τ).loc main_arg23))) (m ((c : Thread nD τ).loc main_arg15))
/-- The updated field rows. -/
def field (c : Dev nD) : FVec Ideal S40000x64 .f32 :=
  FieldRows.update (m ((c : Thread nD τ).loc main_arg3)) (m ((c : Thread nD τ).loc main_arg10)) (m ((c : Thread nD τ).loc main_arg11))
    (mean40k (m ((c : Thread nD τ).loc main_arg0)) (m ((c : Thread nD τ).loc main_arg20)) (m ((c : Thread nD τ).loc main_arg21))) (m ((c : Thread nD τ).loc main_arg14))

/-- What the first launch's write-backs leave. -/
theorem paper_final (c : Dev nD) : (dat0 (V1 m ρ) c).arrAt 7 cfg0.N = paper m c :=
  (PaperRows.final (V1 m ρ) c (m ((c : Thread nD τ).loc main_arg5)) (V1_v76_row m ρ c)).trans (by
    unfold paper
    rw [V1_arg0 m ρ c, V1_arg4 m ρ c, V1_arg12 m ρ c, V1_arg13 m ρ c, V1_v18 m ρ c, V1_v37 m ρ c])
/-- What the second launch's write-backs leave. -/
theorem author_final (c : Dev nD) : (dat1 (V3 m ρ) c).arrAt 3 cfg1.N = author m c :=
  (AuthorRows.final (V3 m ρ) c (m ((c : Thread nD τ).loc main_arg7)) (V3_v78_row m ρ c)).trans (by
    unfold author
    rw [V3_arg1 m ρ c, V3_arg6 m ρ c])
/-- What the third launch's write-backs leave. -/
theorem inst_final (c : Dev nD) : (dat2 (V5 m ρ) c).arrAt 5 cfg2.N = inst m c :=
  (InstRows.final (V5 m ρ) c (m ((c : Thread nD τ).loc main_arg9)) (V5_v80_row m ρ c)).trans (by
    unfold inst
    rw [V5_arg2 m ρ c, V5_arg8 m ρ c, V5_arg15 m ρ c, V5_v75 m ρ c, V1_v75 m ρ c])
/-- What the fourth launch's write-backs leave. -/
theorem field_final (c : Dev nD) : (dat3 (V7 m ρ) c).arrAt 5 cfg3.N = field m c :=
  (FieldRows.final (V7 m ρ) c (m ((c : Thread nD τ).loc main_arg11)) (V7_v82_row m ρ c)).trans (by
    unfold field
    rw [V7_arg3 m ρ c, V7_arg10 m ρ c, V7_arg14 m ρ c, V7_v56 m ρ c, V1_v56 m ρ c])

/-- THE RUN, READ: every weakly fair execution of the program terminates, nothing faulting, with the four result
    buffers at the four updates of the arguments and the arguments unchanged. -/
theorem run : θ_run defs (onTc (τ := τ) (main (F := Ideal))) ⟨m, fun _ => 0, ρ⟩ (fun r => ∀ c : Dev nD,
      r.2.mem ((c.tc : Thread nD τ).loc main_v77) = paper m c
      ∧ r.2.mem ((c.tc : Thread nD τ).loc main_v79) = author m c
      ∧ r.2.mem ((c.tc : Thread nD τ).loc main_v81) = inst m c
      ∧ r.2.mem ((c.tc : Thread nD τ).loc main_v83) = field m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c _ (mem_uc main_v77 (by decide))).trans ((W8_v77 m ρ c).trans (paper_final m ρ c)),
      (h c _ (mem_uc main_v79 (by decide))).trans ((W8_v79 m ρ c).trans (author_final m ρ c)),
      (h c _ (mem_uc main_v81 (by decide))).trans ((W8_v81 m ρ c).trans (inst_final m ρ c)),
      (h c _ (mem_uc main_v83 (by decide))).trans ((W8_v83 m ρ c).trans (field_final m ρ c)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c),
      (h c _ (mem_uc main_arg20 (by decide))).trans (W8_main_arg20 m ρ c),
      (h c _ (mem_uc main_arg21 (by decide))).trans (W8_main_arg21 m ρ c),
      (h c _ (mem_uc main_arg22 (by decide))).trans (W8_main_arg22 m ρ c),
      (h c _ (mem_uc main_arg23 (by decide))).trans (W8_main_arg23 m ρ c)⟩)
    (run_all m ρ)

end Cert.KernelIdeal.Results

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.LibScatterAdd.lean ====
/-
  The host's accumulating scatter (a segment sum) read at an index, at the ideal values.

  For an operand of N entries, a column of scatter indices `idx : [E, 1]` and E updates, the scatter with
  inserted window axis 0, scatter-dims-to-operand-dims [0] and index-vector axis 1 adds update e into the
  entry that the index word `idx[e, 0]`, read signed, names; an update whose word names no entry (negative,
  or N and beyond) is dropped — a scatter does not clamp.  At the ideal values the result at entry i is the
  operand's entry plus the plain sum, over all e, of the updates whose word names i: no order of addition is
  left in it.  The row form does the same for an [N, C] operand and [E, C] updates (update window axis 1):
  row e of the updates is added into the row its word names, lane by lane.
-/
import Idealize.ShloMosaic.Lib.ValueIdx
import Idealize.ShloMosaic.PureOps.Ideal
import Mathlib.Algebra.BigOperators.Fin
import proofs.«124696_j50044958933135_1_alg».proof.Proof.LibIdxSums

noncomputable section

namespace Cert.Lib.ScatterAdd

open Idealize.ShloMosaic Idealize.ShloMosaic.ValueIdx
open scoped BigOperators

/-- The dimension numbers of an entry scatter into a vector [N] at scatter indices [E, 1] of updates [E]; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row scatter into a table [N, C] at scatter indices [E, 1] of updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- Update e of an entry scatter lands at the position its index word, read signed, names. -/
theorem vec_landing (idx : IVec ⟨2, ![E, 1]⟩ w) (e : Fin E) (a : Fin 1) :
    (vecDims N E wf).start (ix1 e) idx a + ((vecDims N E wf).window (ix1 e) a : Int)
      = (idx (ix2 e (0 : Fin 1))).toInt := by
  obtain rfl : a = 0 := Subsingleton.elim _ _
  have h1 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (vecDims N E wf).window (ix1 e) 0 = 0 := by
    unfold ScatterDims.window
    rw [dif_neg (fun h => by simp [Shape.kept] at h)]
  rw [h1, h2]; simp

/-- Update e lands on entry i exactly when its index word, read signed, is i. -/
theorem vec_resultIdx_iff (idx : IVec ⟨2, ![E, 1]⟩ w) (e : Fin E) (i : (⟨1, ![N]⟩ : Shape).Idx) :
    (vecDims N E wf).resultIdx? (ix1 e) idx = some i ↔ (idx (ix2 e (0 : Fin 1))).toInt = ((i 0).val : Int) := by
  unfold ScatterDims.resultIdx?
  split
  · next h =>
    rw [Option.some.injEq]
    constructor
    · intro hf
      have h0 := congrArg (fun g : (⟨1, ![N]⟩ : Shape).Idx => (g 0).val) hf
      simp only at h0
      have hl := vec_landing wf idx e 0
      have hp := (h 0).1
      rw [hl] at h0 hp
      omega
    · intro hv
      funext a
      obtain rfl : a = 0 := Subsingleton.elim _ _
      refine Fin.ext ?_
      show ((vecDims N E wf).start (ix1 e) idx 0 + ((vecDims N E wf).window (ix1 e) 0 : Int)).toNat = (i 0).val
      rw [vec_landing wf idx e 0, hv]; simp
  · next h =>
    constructor
    · intro hf; cases hf
    · intro hv
      exfalso; apply h
      intro a
      obtain rfl : a = 0 := Subsingleton.elim _ _
      rw [vec_landing wf idx e 0, hv]
      exact ⟨Int.natCast_nonneg _, by exact_mod_cast (i 0).isLt⟩

/-- THE ENTRY SCATTER-ADD READ AT i: the operand's entry plus the sum of the updates whose word names i. -/
theorem scatterAdd_vec_apply {φ : FTy} (x : FVec Ideal ⟨1, ![N]⟩ φ) (idx : IVec ⟨2, ![E, 1]⟩ w)
    (upd : FVec Ideal ⟨1, ![E]⟩ φ) (i : (⟨1, ![N]⟩ : Shape).Idx) :
    (Host.scatterAdd (vecDims N E wf) x idx upd i : EReal)
      = x i + ∑ e : Fin E, if (idx (ix2 e (0 : Fin 1))).toInt = ((i 0).val : Int) then (upd (ix1 e) : EReal) else 0 := by
  show Ideal.hostScatterAdd (vecDims N E wf) x idx upd i = _
  unfold Ideal.hostScatterAdd
  congr 1
  rw [Finset.sum_filter]
  rw [Cert.Lib.IdxSums.sum_idx1]
  refine Finset.sum_congr rfl fun e _ => ?_
  simp only [vec_resultIdx_iff wf idx e i]

end Vec

section Row
variable {N E C w : Nat} (wf : ScatterDims.WF ⟨2, ![N, C]⟩ ⟨2, ![E, 1]⟩ ⟨2, ![E, C]⟩ [1] [0] [0] 1)

/-- Row e of the updates lands in the row its index word, read signed, names… -/
theorem row_landing0 (idx : IVec ⟨2, ![E, 1]⟩ w) (e : Fin E) (q : Fin C) :
    (rowDims N E C wf).start (ix2 e q) idx 0 + ((rowDims N E C wf).window (ix2 e q) 0 : Int)
      = (idx (ix2 e (0 : Fin 1))).toInt := by
  have h1 : (rowDims N E C wf).start (ix2 e q) idx 0 = (idx (ix2 e (0 : Fin 1))).toInt := by
    unfold ScatterDims.start
    rw [dif_pos (show (0 : Fin 2) ∈ (rowDims N E C wf).scatterDimsToOperandDims from List.mem_singleton.mpr rfl)]
    have hsi : (rowDims N E C wf).siIdx (ix2 e q) ⟨List.idxOf (0 : Fin 2) (rowDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (rowDims N E C wf).window (ix2 e q) 0 = 0 := by
    unfold ScatterDims.window
    rw [dif_neg (fun h => by simp [Shape.kept] at h)]
  rw [h1, h2]; simp

/-- …lane for lane. -/
theorem row_landing1 (idx : IVec ⟨2, ![E, 1]⟩ w) (e : Fin E) (q : Fin C) :
    (rowDims N E C wf).start (ix2 e q) idx 1 + ((rowDims N E C wf).window (ix2 e q) 1 : Int) = (q.val : Int) := by
  have h1 : (rowDims N E C wf).start (ix2 e q) idx 1 = 0 := by
    unfold ScatterDims.start
    rw [dif_neg (fun h => absurd (show (1 : Nat) = 0 from congrArg Fin.val (List.mem_singleton.mp h)) Nat.one_ne_zero)]
  have h2 : (rowDims N E C wf).window (ix2 e q) 1 = q.val := by
    unfold ScatterDims.window
    rw [dif_pos (show (1 : Fin 2) ∈ (rowDims N E C wf).sKept by simp [Shape.kept])]
    rfl
  rw [h1, h2]; simp

/-- Update (e, q) lands on entry (r, c) exactly when its row's index word, read signed, is r and q = c. -/
theorem row_resultIdx_iff (idx : IVec ⟨2, ![E, 1]⟩ w) (e : Fin E) (q : Fin C) (r : Fin N) (c : Fin C) :
    (rowDims N E C wf).resultIdx? (ix2 e q) idx = some (ix2 r c)
      ↔ (idx (ix2 e (0 : Fin 1))).toInt = (r.val : Int) ∧ q = c := by
  unfold ScatterDims.resultIdx?
  split
  · next h =>
    rw [Option.some.injEq]
    constructor
    · intro hf
      have h0 := congrArg (fun g : (⟨2, ![N, C]⟩ : Shape).Idx => (g 0).val) hf
      have h1 := congrArg (fun g : (⟨2, ![N, C]⟩ : Shape).Idx => (g 1).val) hf
      simp only at h0 h1
      have hp := (h 0).1
      rw [row_landing0 wf idx e q] at h0 hp
      rw [row_landing1 wf idx e q] at h1
      refine ⟨?_, Fin.ext ?_⟩
      · change ((idx (ix2 e (0 : Fin 1))).toInt).toNat = r.val at h0
        omega
      · change ((q.val : Int)).toNat = c.val at h1
        omega
    · rintro ⟨hv, rfl⟩
      funext a
      refine Fin.ext ?_
      match a with
      | ⟨0, _⟩ =>
        show ((rowDims N E C wf).start (ix2 e q) idx 0 + ((rowDims N E C wf).window (ix2 e q) 0 : Int)).toNat = r.val
        rw [row_landing0 wf idx e q, hv]; simp
      | ⟨1, _⟩ =>
        show ((rowDims N E C wf).start (ix2 e q) idx 1 + ((rowDims N E C wf).window (ix2 e q) 1 : Int)).toNat = q.val
        rw [row_landing1 wf idx e q]; simp
  · next h =>
    constructor
    · intro hf; cases hf
    · rintro ⟨hv, rfl⟩
      exfalso; apply h
      intro a
      match a with
      | ⟨0, _⟩ =>
        show 0 ≤ (rowDims N E C wf).start (ix2 e q) idx 0 + ((rowDims N E C wf).window (ix2 e q) 0 : Int)
          ∧ (rowDims N E C wf).start (ix2 e q) idx 0 + ((rowDims N E C wf).window (ix2 e q) 0 : Int) < (N : Int)
        rw [row_landing0 wf idx e q, hv]
        exact ⟨Int.natCast_nonneg _, by exact_mod_cast r.isLt⟩
      | ⟨1, _⟩ =>
        show 0 ≤ (rowDims N E C wf).start (ix2 e q) idx 1 + ((rowDims N E C wf).window (ix2 e q) 1 : Int)
          ∧ (rowDims N E C wf).start (ix2 e q) idx 1 + ((rowDims N E C wf).window (ix2 e q) 1 : Int) < (C : Int)
        rw [row_landing1 wf idx e q]
        exact ⟨Int.natCast_nonneg _, by exact_mod_cast q.isLt⟩

/-- THE ROW SCATTER-ADD READ AT (r, c): the operand's entry plus the sum, over the update rows whose word names
    row r, of their lane c. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    (Host.scatterAdd (rowDims N E C wf) x idx upd (ix2 r c) : EReal)
      = x (ix2 r c)
        + ∑ e : Fin E, if (idx (ix2 e (0 : Fin 1))).toInt = (r.val : Int) then (upd (ix2 e c) : EReal) else 0 := by
  show Ideal.hostScatterAdd (rowDims N E C wf) x idx upd (ix2 r c) = _
  unfold Ideal.hostScatterAdd
  congr 1
  rw [Finset.sum_filter, sum_idx2]
  refine Finset.sum_congr rfl fun e _ => ?_
  simp only [row_resultIdx_iff wf idx e _ r c]
  by_cases hv : (idx (ix2 e (0 : Fin 1))).toInt = (r.val : Int)
  · simp only [hv, true_and, if_true]
    rw [Finset.sum_ite_eq' Finset.univ c (fun q => (upd (ix2 e q) : EReal))]
    simp
  · simp only [hv, false_and, if_false, Finset.sum_const_zero]

end Row

end Cert.Lib.ScatterAdd

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibCountLayouts.lean ====
/-
  The number of incoming edges of a node, counted in two layouts, gives one and the same divisor.

  A mean over a node's incoming edges divides the summed features by max(count, 1), the count being a segment sum of ones
  over the edge list's destination column.  One spelling counts into a vector [N] from ones [E], clamps, and then makes
  the vector a column [N, 1] and spreads it over the C feature lanes.  The other counts into a column [N, 1] from ones
  [E, 1], clamps, and spreads the column.  At the ideal values (floats extended reals, every operation exact) both
  counts, read at node n, are the initial word plus the sum over the edges of (one if the edge's destination word,
  read signed, is n, else zero): the same sum, so the two spread divisors are the same array.
-/
import proofs.«124696_j50044958933135_1_alg».proof.Proof.LibScatterAdd
import proofs.«124696_j50044958933135_1_alg».proof.Proof.LibHostColumns
import proofs.«124696_j50044958933135_1_alg».proof.Proof.LibRowBroadcast

noncomputable section

namespace Cert.Lib.CountLayouts

open Idealize.ShloMosaic Idealize.ShloMosaic.ValueIdx
open Cert.Lib.ScatterAdd Cert.Lib.HostColumns Cert.Lib.RowBroadcast

variable {N E C : Nat}

/-- The clamped count spread over the lanes: counted as a vector and then made a column, or counted as a column. -/
theorem divisor_eq
    (wfv : ScatterDims.WF ⟨1, ![N]⟩ ⟨2, ![E, 1]⟩ ⟨1, ![E]⟩ [] [0] [0] 1)
    (wfr : ScatterDims.WF ⟨2, ![N, 1]⟩ ⟨2, ![E, 1]⟩ ⟨2, ![E, 1]⟩ [1] [0] [0] 1)
    (idx : IVec ⟨2, ![E, 1]⟩ 32) (z o : BitVec FTy.f32.bits)
    (hN : (⟨0, ![]⟩ : Shape).BroadcastsInDim ⟨1, ![N]⟩ (![] : Fin 0 → Fin 1))
    (hE : (⟨0, ![]⟩ : Shape).BroadcastsInDim ⟨1, ![E]⟩ (![] : Fin 0 → Fin 1))
    (hN1 : (⟨0, ![]⟩ : Shape).BroadcastsInDim ⟨2, ![N, 1]⟩ (![] : Fin 0 → Fin 2))
    (hE1 : (⟨0, ![]⟩ : Shape).BroadcastsInDim ⟨2, ![E, 1]⟩ (![] : Fin 0 → Fin 2))
    (hcol : (⟨1, ![N]⟩ : Shape).BroadcastsInDim ⟨2, ![N, 1]⟩ (![0] : Fin 1 → Fin 2))
    (hl hl' : (⟨2, ![N, 1]⟩ : Shape).BroadcastsInDim ⟨2, ![N, C]⟩ (![0, 1] : Fin 2 → Fin 2)) :
    broadcastInDim ⟨2, ![N, C]⟩ (![0, 1] : Fin 2 → Fin 2) hl
        (broadcastInDim ⟨2, ![N, 1]⟩ (![0] : Fin 1 → Fin 2) hcol
          (maximumf
            (Host.scatterAdd (vecDims N E wfv)
              (broadcastInDim ⟨1, ![N]⟩ (![] : Fin 0 → Fin 1) hN (constant (F := Ideal) ⟨0, ![]⟩ .f32 z)) idx
              (broadcastInDim ⟨1, ![E]⟩ (![] : Fin 0 → Fin 1) hE (constant (F := Ideal) ⟨0, ![]⟩ .f32 o)))
            (broadcastInDim ⟨1, ![N]⟩ (![] : Fin 0 → Fin 1) hN (constant (F := Ideal) ⟨0, ![]⟩ .f32 o))))
      = broadcastInDim ⟨2, ![N, C]⟩ (![0, 1] : Fin 2 → Fin 2) hl'
          (maximumf
            (Host.scatterAdd (rowDims N E 1 wfr)
              (broadcastInDim ⟨2, ![N, 1]⟩ (![] : Fin 0 → Fin 2) hN1 (constant (F := Ideal) ⟨0, ![]⟩ .f32 z)) idx
              (broadcastInDim ⟨2, ![E, 1]⟩ (![] : Fin 0 → Fin 2) hE1 (constant (F := Ideal) ⟨0, ![]⟩ .f32 o)))
            (broadcastInDim ⟨2, ![N, 1]⟩ (![] : Fin 0 → Fin 2) hN1 (constant (F := Ideal) ⟨0, ![]⟩ .f32 o))) := by
  funext j
  obtain ⟨n, c, rfl⟩ : ∃ (n : Fin N) (c : Fin C), j = ix2 n c := ⟨j 0, j 1, eq_ix2 j⟩
  rw [bcast_col_lanes_apply _ hl n c 0, bcast_col_lanes_apply _ hl' n c 0, bcast_vec_col_apply _ hcol n 0,
    maximumf_apply, maximumf_apply, scatterAdd_vec_apply wfv, scatterAdd_rows_apply wfr]
  simp only [broadcastInDim_scalar_apply _ hN _ ix0, broadcastInDim_scalar_apply _ hE _ ix0,
    broadcastInDim_scalar_apply _ hN1 _ ix0, broadcastInDim_scalar_apply _ hE1 _ ix0]
  rfl

end Cert.Lib.CountLayouts

end
-- ==== Proof.Bridge.lean ====
/-
  The two programs compute the same four arrays.

  Both programs compute, for each node type,  x · W + b  plus each incoming relation's mean neighbour features times the
  relation's weights, the terms added in the same order, and both compute a relation's mean features as the segment sum
  of the gathered source rows divided by max(count, 1).  They differ in two spellings only.  The count of a node's
  incoming edges is, in one program, a vector over the nodes made a column and spread over the lanes, in the other a
  column from the start: the same divisor (the count read at a node is the same sum over the edges either way).  And the
  matrix products are written with each program's own record of the plain dimension numbers.  Everything else — the
  gather, the wrap of a negative source index, the segment sum of the rows — is one and the same term, carried whole.
-/
import proofs.«124696_j50044958933135_1_alg».proof.Proof.HostSide
import proofs.«124696_j50044958933135_1_alg».proof.Proof.PaperRows
import proofs.«124696_j50044958933135_1_alg».proof.Proof.AuthorRows
import proofs.«124696_j50044958933135_1_alg».proof.Proof.InstRows
import proofs.«124696_j50044958933135_1_alg».proof.Proof.FieldRows
import proofs.«124696_j50044958933135_1_alg».proof.Proof.LibCountLayouts
import proofs.«124696_j50044958933135_1_alg».proof.Proof.Gen.ReferenceIdeal
import Idealize.ShloMosaic.Lib.ValueIdx

set_option maxRecDepth 16384

noncomputable section

namespace Cert.ReferenceIdeal.HostSide

open Idealize.ShloMosaic Idealize.ShloMosaic.ValueIdx Cert.ReferenceIdeal

/-- The mean over incoming edges, 2000000 edges into 200000 destination nodes, with the count taken as a column. -/
def mean200k (x : FVec Ideal S200000x64 .f32) (src dst : IVec S2000000 32) : FVec Ideal S200000x64 .f32 :=
  Host.divf
    (Host.scatterAdd scatter_S200000x64_S2000000x1_S2000000x64_1_0_0_1
      (broadcastInDim S200000x64 ![] Gen.bcast_S_S200000x64 (constant (F := Ideal) S_ .f32 0x00000000#32))
      (broadcastInDim S2000000x1 ![0] Gen.bcast_S2000000_S2000000x1_0 dst)
      (Host.gather gather_S200000x64_S2000000x1_S2000000x64_1_0_n_n_0_1_164 x
        (broadcastInDim S2000000x1 ![0] Gen.bcast_S2000000_S2000000x1_0
          (select (cmpi .slt src (broadcastInDim S2000000 ![] Gen.bcast_S_S2000000 (constantI S_ 32 0#32)))
            (addi src (broadcastInDim S2000000 ![] Gen.bcast_S_S2000000 (constantI S_ 32 200000#32))) src))))
    (broadcastInDim S200000x64 ![0, 1] Gen.bcast_S200000x1_S200000x64_0_1
      (maximumf
        (Host.scatterAdd scatter_S200000x1_S2000000x1_S2000000x1_1_0_0_1
          (broadcastInDim S200000x1 ![] Gen.bcast_S_S200000x1 (constant (F := Ideal) S_ .f32 0x00000000#32))
          (broadcastInDim S2000000x1 ![0] Gen.bcast_S2000000_S2000000x1_0 dst)
          (broadcastInDim S2000000x1 ![] Gen.bcast_S_S2000000x1 (constant (F := Ideal) S_ .f32 0x3F800000#32)))
        (broadcastInDim S200000x1 ![] Gen.bcast_S_S200000x1 (constant (F := Ideal) S_ .f32 0x3F800000#32))))

/-- The same, 2000000 edges into 40000 destination nodes. -/
def mean40k (x : FVec Ideal S200000x64 .f32) (src dst : IVec S2000000 32) : FVec Ideal S40000x64 .f32 :=
  Host.divf
    (Host.scatterAdd scatter_S40000x64_S2000000x1_S2000000x64_1_0_0_1
      (broadcastInDim S40000x64 ![] Gen.bcast_S_S40000x64 (constant (F := Ideal) S_ .f32 0x00000000#32))
      (broadcastInDim S2000000x1 ![0] Gen.bcast_S2000000_S2000000x1_0 dst)
      (Host.gather gather_S200000x64_S2000000x1_S2000000x64_1_0_n_n_0_1_164 x
        (broadcastInDim S2000000x1 ![0] Gen.bcast_S2000000_S2000000x1_0
          (select (cmpi .slt src (broadcastInDim S2000000 ![] Gen.bcast_S_S2000000 (constantI S_ 32 0#32)))
            (addi src (broadcastInDim S2000000 ![] Gen.bcast_S_S2000000 (constantI S_ 32 200000#32))) src))))
    (broadcastInDim S40000x64 ![0, 1] Gen.bcast_S40000x1_S40000x64_0_1
      (maximumf
        (Host.scatterAdd scatter_S40000x1_S2000000x1_S2000000x1_1_0_0_1
          (broadcastInDim S40000x1 ![] Gen.bcast_S_S40000x1 (constant (F := Ideal) S_ .f32 0x00000000#32))
          (broadcastInDim S2000000x1 ![0] Gen.bcast_S2000000_S2000000x1_0 dst)
          (broadcastInDim S2000000x1 ![] Gen.bcast_S_S2000000x1 (constant (F := Ideal) S_ .f32 0x3F800000#32)))
        (broadcastInDim S40000x1 ![] Gen.bcast_S_S40000x1 (constant (F := Ideal) S_ .f32 0x3F800000#32))))

/-- The same, 400000 edges into 8000 destination nodes. -/
def mean8k (x : FVec Ideal S200000x64 .f32) (src dst : IVec S400000 32) : FVec Ideal S8000x64 .f32 :=
  Host.divf
    (Host.scatterAdd scatter_S8000x64_S400000x1_S400000x64_1_0_0_1
      (broadcastInDim S8000x64 ![] Gen.bcast_S_S8000x64 (constant (F := Ideal) S_ .f32 0x00000000#32))
      (broadcastInDim S400000x1 ![0] Gen.bcast_S400000_S400000x1_0 dst)
      (Host.gather gather_S200000x64_S400000x1_S400000x64_1_0_n_n_0_1_164 x
        (broadcastInDim S400000x1 ![0] Gen.bcast_S400000_S400000x1_0
          (select (cmpi .slt src (broadcastInDim S400000 ![] Gen.bcast_S_S400000 (constantI S_ 32 0#32)))
            (addi src (broadcastInDim S400000 ![] Gen.bcast_S_S400000 (constantI S_ 32 200000#32))) src))))
    (broadcastInDim S8000x64 ![0, 1] Gen.bcast_S8000x1_S8000x64_0_1
      (maximumf
        (Host.scatterAdd scatter_S8000x1_S400000x1_S400000x1_1_0_0_1
          (broadcastInDim S8000x1 ![] Gen.bcast_S_S8000x1 (constant (F := Ideal) S_ .f32 0x00000000#32))
          (broadcastInDim S400000x1 ![0] Gen.bcast_S400000_S400000x1_0 dst)
          (broadcastInDim S400000x1 ![] Gen.bcast_S_S400000x1 (constant (F := Ideal) S_ .f32 0x3F800000#32)))
        (broadcastInDim S8000x1 ![] Gen.bcast_S_S8000x1 (constant (F := Ideal) S_ .f32 0x3F800000#32))))

end Cert.ReferenceIdeal.HostSide

namespace Cert.Bridge

open Idealize.ShloMosaic Idealize.ShloMosaic.ValueIdx

/-- The two spellings of the mean, 2000000 edges into 200000 nodes, are one array: the summed rows are the same term, the divisors
    the same array. -/
theorem mean200k_eq (x : FVec Ideal Cert.KernelIdeal.S200000x64 .f32) (src dst : IVec Cert.KernelIdeal.S2000000 32) :
    Cert.KernelIdeal.HostSide.mean200k x src dst = Cert.ReferenceIdeal.HostSide.mean200k x src dst := by
  unfold Cert.KernelIdeal.HostSide.mean200k Cert.ReferenceIdeal.HostSide.mean200k
  rw [show Cert.KernelIdeal.scatter_S200000x64_S2000000x1_S2000000x64_1_0_0_1 = Cert.ReferenceIdeal.scatter_S200000x64_S2000000x1_S2000000x64_1_0_0_1 from rfl,
    show Cert.KernelIdeal.gather_S200000x64_S2000000x1_S2000000x64_1_0_n_n_0_1_164 = Cert.ReferenceIdeal.gather_S200000x64_S2000000x1_S2000000x64_1_0_n_n_0_1_164 from rfl]
  refine congrArg (Host.divf _) ?_
  exact Cert.Lib.CountLayouts.divisor_eq Cert.KernelIdeal.Gen.scatter_S200000_S2000000x1_S2000000_n_0_0_1_wf
    Cert.ReferenceIdeal.Gen.scatter_S200000x1_S2000000x1_S2000000x1_1_0_0_1_wf _ 0x00000000#32 0x3F800000#32 _ _ _ _ _ _ _

/-- The two spellings of the mean, 2000000 edges into 40000 nodes, are one array: the summed rows are the same term, the divisors
    the same array. -/
theorem mean40k_eq (x : FVec Ideal Cert.KernelIdeal.S200000x64 .f32) (src dst : IVec Cert.KernelIdeal.S2000000 32) :
    Cert.KernelIdeal.HostSide.mean40k x src dst = Cert.ReferenceIdeal.HostSide.mean40k x src dst := by
  unfold Cert.KernelIdeal.HostSide.mean40k Cert.ReferenceIdeal.HostSide.mean40k
  rw [show Cert.KernelIdeal.scatter_S40000x64_S2000000x1_S2000000x64_1_0_0_1 = Cert.ReferenceIdeal.scatter_S40000x64_S2000000x1_S2000000x64_1_0_0_1 from rfl,
    show Cert.KernelIdeal.gather_S200000x64_S2000000x1_S2000000x64_1_0_n_n_0_1_164 = Cert.ReferenceIdeal.gather_S200000x64_S2000000x1_S2000000x64_1_0_n_n_0_1_164 from rfl]
  refine congrArg (Host.divf _) ?_
  exact Cert.Lib.CountLayouts.divisor_eq Cert.KernelIdeal.Gen.scatter_S40000_S2000000x1_S2000000_n_0_0_1_wf
    Cert.ReferenceIdeal.Gen.scatter_S40000x1_S2000000x1_S2000000x1_1_0_0_1_wf _ 0x00000000#32 0x3F800000#32 _ _ _ _ _ _ _

/-- The two spellings of the mean, 400000 edges into 8000 nodes, are one array: the summed rows are the same term, the divisors
    the same array. -/
theorem mean8k_eq (x : FVec Ideal Cert.KernelIdeal.S200000x64 .f32) (src dst : IVec Cert.KernelIdeal.S400000 32) :
    Cert.KernelIdeal.HostSide.mean8k x src dst = Cert.ReferenceIdeal.HostSide.mean8k x src dst := by
  unfold Cert.KernelIdeal.HostSide.mean8k Cert.ReferenceIdeal.HostSide.mean8k
  rw [show Cert.KernelIdeal.scatter_S8000x64_S400000x1_S400000x64_1_0_0_1 = Cert.ReferenceIdeal.scatter_S8000x64_S400000x1_S400000x64_1_0_0_1 from rfl,
    show Cert.KernelIdeal.gather_S200000x64_S400000x1_S400000x64_1_0_n_n_0_1_164 = Cert.ReferenceIdeal.gather_S200000x64_S400000x1_S400000x64_1_0_n_n_0_1_164 from rfl]
  refine congrArg (Host.divf _) ?_
  exact Cert.Lib.CountLayouts.divisor_eq Cert.KernelIdeal.Gen.scatter_S8000_S400000x1_S400000_n_0_0_1_wf
    Cert.ReferenceIdeal.Gen.scatter_S8000x1_S400000x1_S400000x1_1_0_0_1_wf _ 0x00000000#32 0x3F800000#32 _ _ _ _ _ _ _

/-- The paper rows: the host program's expression is the update the first launch leaves. -/
theorem paper_eq (x0 x1 : FVec Ideal Cert.KernelIdeal.S200000x64 .f32) (w4 w12 w13 : FVec Ideal Cert.KernelIdeal.S64x64 .f32)
    (b5 : FVec Ideal Cert.KernelIdeal.S64 .f32) (s16 d17 s18 d19 : IVec Cert.KernelIdeal.S2000000 32) :
    addf (addf (addf (Host.dotGeneral Cert.ReferenceIdeal.dot_S200000x64_S64x64_S200000x64_1_0_0_1_n_n none x0 w4)
          (broadcastInDim Cert.ReferenceIdeal.S200000x64 ![0, 1] Cert.ReferenceIdeal.Gen.bcast_S1x64_S200000x64_0_1
            (broadcastInDim Cert.ReferenceIdeal.S1x64 ![1] Cert.ReferenceIdeal.Gen.bcast_S64_S1x64_1 b5)))
        (Host.dotGeneral Cert.ReferenceIdeal.dot_S200000x64_S64x64_S200000x64_1_0_0_1_n_n none
          (Cert.ReferenceIdeal.HostSide.mean200k x0 s16 d17) w12))
      (Host.dotGeneral Cert.ReferenceIdeal.dot_S200000x64_S64x64_S200000x64_1_0_0_1_n_n none
        (Cert.ReferenceIdeal.HostSide.mean200k x1 s18 d19) w13)
    = Cert.KernelIdeal.PaperRows.update x0 w4 b5 (Cert.KernelIdeal.HostSide.mean200k x0 s16 d17) w12
        (Cert.KernelIdeal.HostSide.mean200k x1 s18 d19) w13 := by
  unfold Cert.KernelIdeal.PaperRows.update
  rw [mean200k_eq, mean200k_eq,
    show Cert.ReferenceIdeal.dot_S200000x64_S64x64_S200000x64_1_0_0_1_n_n = DotDims.plain 200000 64 64 from rfl]

/-- The author rows. -/
theorem author_eq (x1 : FVec Ideal Cert.KernelIdeal.S200000x64 .f32) (w6 : FVec Ideal Cert.KernelIdeal.S64x64 .f32)
    (b7 : FVec Ideal Cert.KernelIdeal.S64 .f32) :
    addf (Host.dotGeneral Cert.ReferenceIdeal.dot_S200000x64_S64x64_S200000x64_1_0_0_1_n_n none x1 w6)
        (broadcastInDim Cert.ReferenceIdeal.S200000x64 ![0, 1] Cert.ReferenceIdeal.Gen.bcast_S1x64_S200000x64_0_1
          (broadcastInDim Cert.ReferenceIdeal.S1x64 ![1] Cert.ReferenceIdeal.Gen.bcast_S64_S1x64_1 b7))
    = Cert.KernelIdeal.AuthorRows.update x1 w6 b7 := by
  unfold Cert.KernelIdeal.AuthorRows.update
  rw [show Cert.ReferenceIdeal.dot_S200000x64_S64x64_S200000x64_1_0_0_1_n_n = DotDims.plain 200000 64 64 from rfl]

/-- The institution rows. -/
theorem inst_eq (x1 : FVec Ideal Cert.KernelIdeal.S200000x64 .f32) (x2 : FVec Ideal Cert.KernelIdeal.S8000x64 .f32)
    (w8 w15 : FVec Ideal Cert.KernelIdeal.S64x64 .f32) (b9 : FVec Ideal Cert.KernelIdeal.S64 .f32)
    (s22 d23 : IVec Cert.KernelIdeal.S400000 32) :
    addf (addf (Host.dotGeneral Cert.ReferenceIdeal.dot_S8000x64_S64x64_S8000x64_1_0_0_1_n_n none x2 w8)
        (broadcastInDim Cert.ReferenceIdeal.S8000x64 ![0, 1] Cert.ReferenceIdeal.Gen.bcast_S1x64_S8000x64_0_1
          (broadcastInDim Cert.ReferenceIdeal.S1x64 ![1] Cert.ReferenceIdeal.Gen.bcast_S64_S1x64_1 b9)))
      (Host.dotGeneral Cert.ReferenceIdeal.dot_S8000x64_S64x64_S8000x64_1_0_0_1_n_n none
        (Cert.ReferenceIdeal.HostSide.mean8k x1 s22 d23) w15)
    = Cert.KernelIdeal.InstRows.update x2 w8 b9 (Cert.KernelIdeal.HostSide.mean8k x1 s22 d23) w15 := by
  unfold Cert.KernelIdeal.InstRows.update
  rw [mean8k_eq, show Cert.ReferenceIdeal.dot_S8000x64_S64x64_S8000x64_1_0_0_1_n_n = DotDims.plain 8000 64 64 from rfl]

/-- The field rows. -/
theorem field_eq (x0 : FVec Ideal Cert.KernelIdeal.S200000x64 .f32) (x3 : FVec Ideal Cert.KernelIdeal.S40000x64 .f32)
    (w10 w14 : FVec Ideal Cert.KernelIdeal.S64x64 .f32) (b11 : FVec Ideal Cert.KernelIdeal.S64 .f32)
    (s20 d21 : IVec Cert.KernelIdeal.S2000000 32) :
    addf (addf (Host.dotGeneral Cert.ReferenceIdeal.dot_S40000x64_S64x64_S40000x64_1_0_0_1_n_n none x3 w10)
        (broadcastInDim Cert.ReferenceIdeal.S40000x64 ![0, 1] Cert.ReferenceIdeal.Gen.bcast_S1x64_S40000x64_0_1
          (broadcastInDim Cert.ReferenceIdeal.S1x64 ![1] Cert.ReferenceIdeal.Gen.bcast_S64_S1x64_1 b11)))
      (Host.dotGeneral Cert.ReferenceIdeal.dot_S40000x64_S64x64_S40000x64_1_0_0_1_n_n none
        (Cert.ReferenceIdeal.HostSide.mean40k x0 s20 d21) w14)
    = Cert.KernelIdeal.FieldRows.update x3 w10 b11 (Cert.KernelIdeal.HostSide.mean40k x0 s20 d21) w14 := by
  unfold Cert.KernelIdeal.FieldRows.update
  rw [mean40k_eq, show Cert.ReferenceIdeal.dot_S40000x64_S64x64_S40000x64_1_0_0_1_n_n = DotDims.plain 40000 64 64 from rfl]

end Cert.Bridge

end
-- ==== Proof.lean ====
/-
  A relational graph layer over four node types (papers, authors, institutions, fields of study): every node's new
  features are  x · W_root + b  plus, for each relation arriving at its type, the mean of the source nodes' features over
  its incoming edges times the relation's weights.  The kernel program computes the means with host gathers and segment
  sums and then runs one launch of the matrix unit per node type, a block of rows per grid point; the reference program
  computes everything with whole-array host operations.

  The claims.  The two kernel programs' frames are the generated frames; the reference's frame is its generated run with
  the results dropped.  The idealization rewrote nothing, so it is preserved trivially.  The two idealized programs end
  with equal results: each launch's result array is the whole-array update of the arrays it finds (each block's products
  are the same sums over the 64 contraction indices as the whole products, added in the same order, and the blocks tile
  the array); what a launch finds are the arguments and the means the first host stretch computed; and the two programs'
  means differ only in the layout in which the incoming edges are counted, which gives the same divisor.  No step uses
  distributivity or cancellation, so the finiteness of the inputs is never needed.
-/
import proofs.«124696_j50044958933135_1_alg».proof.Defs
import proofs.«124696_j50044958933135_1_alg».proof.Proof.Gen.Kernel
import proofs.«124696_j50044958933135_1_alg».proof.Proof.Gen.Kernel.Skeleton
import proofs.«124696_j50044958933135_1_alg».proof.Proof.Gen.Kernel.Launch
import proofs.«124696_j50044958933135_1_alg».proof.Proof.Gen.Kernel.Points
import proofs.«124696_j50044958933135_1_alg».proof.Proof.Gen.Kernel.Frame
import proofs.«124696_j50044958933135_1_alg».proof.Proof.Gen.KernelIdeal
import proofs.«124696_j50044958933135_1_alg».proof.Proof.Gen.KernelIdeal.Skeleton
import proofs.«124696_j50044958933135_1_alg».proof.Proof.Gen.KernelIdeal.Launch
import proofs.«124696_j50044958933135_1_alg».proof.Proof.Gen.KernelIdeal.Points
import proofs.«124696_j50044958933135_1_alg».proof.Proof.Gen.KernelIdeal.Frame
import proofs.«124696_j50044958933135_1_alg».proof.Proof.Gen.ReferenceIdeal
import proofs.«124696_j50044958933135_1_alg».proof.Proof.Gen.Pre_finite_inputs
import proofs.«124696_j50044958933135_1_alg».proof.Proof.Gen.ReferenceIdeal.Run
import proofs.«124696_j50044958933135_1_alg».proof.Proof.Results
import proofs.«124696_j50044958933135_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed: its generated frame. -/
theorem frame_kernel : Cert.frame_Kernel := fun m ρ _ => Cert.Kernel.Gen.frame m ρ

/-- The idealized kernel program: its generated frame. -/
theorem frame_ideal : Cert.frame_KernelIdeal := fun m ρ _ => Cert.KernelIdeal.Gen.frame m ρ

/-- The reference program has no launch: its frame is its generated run with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories agreeing on the arguments both idealized programs end with the four updates of the arguments. -/
theorem algebraic : Cert.algebraic_KernelIdeal_ReferenceIdeal := by
  intro m ρ m' ρ' _ hagree
  refine ⟨fun c => Cert.KernelIdeal.Results.paper m c, fun c => Cert.KernelIdeal.Results.author m c,
    fun c => Cert.KernelIdeal.Results.inst m c, fun c => Cert.KernelIdeal.Results.field m c,
    Cert.KernelIdeal.Results.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5, a6, a7, a8, a9, a10, a11, a12, a13, a14, a15, a16, a17, a18, a19, a20, a21, a22, a23⟩ := hagree c
  refine ⟨h0.trans ?_, h1.trans ?_, h2.trans ?_, h3.trans ?_, hargs⟩
  · rw [a0, a1, a4, a5, a12, a13, a16, a17, a18, a19]
    exact Cert.Bridge.paper_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg5)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
  · rw [a1, a6, a7]
    exact Cert.Bridge.author_eq (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
  · rw [a1, a2, a8, a9, a15, a22, a23]
    exact Cert.Bridge.inst_eq (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg15)) (m ((c.tc : Thread Cert.KernelIdeal.nD Cert.KernelIdeal.τ).loc Cert.KernelIdeal.main_arg9)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
  · rw [a0, a3, a10, a11, a14, a20, a21]
    exact Cert.Bridge.field_eq (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg14)) (m ((c.tc : Thread Cert.KernelIdeal.nD Cert.KernelIdeal.τ).loc Cert.KernelIdeal.main_arg11)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
